-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x64 : Shape := ⟨2, ![512, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_arg4 : FVec F S512x64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S512x64 .f32) (main_arg3 : FVec F S512x64 .f32) (main_arg4 : FVec F S512x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S8192x512 : Shape := ⟨2, ![8192, 512]⟩
abbrev S512x64 : Shape := ⟨2, ![512, 64]⟩
abbrev S64x8192 : Shape := ⟨2, ![64, 8192]⟩
abbrev S8192x64 : Shape := ⟨2, ![8192, 64]⟩
abbrev S1024x512 : Shape := ⟨2, ![1024, 512]⟩
abbrev S64x1024 : Shape := ⟨2, ![64, 1024]⟩
abbrev S1024x64 : Shape := ⟨2, ![1024, 64]⟩
abbrev S512x512 : Shape := ⟨2, ![512, 512]⟩
abbrev S512x1 : Shape := ⟨2, ![512, 1]⟩
abbrev S512x1024 : Shape := ⟨2, ![512, 1024]⟩
abbrev S512 : Shape := ⟨1, ![512]⟩

abbrev nBuf : Space → Nat
  | .hbm => 8
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S64x8192, .f32⟩
  | .hbm, ⟨6, _⟩ => ⟨S8192x64, .f32⟩
  | .hbm, ⟨7, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S512x64, .f32⟩
  | .local _ .vmem, ⟨4, _⟩ => ⟨S64x1024, .f32⟩
  | .local _ .vmem, ⟨5, _⟩ => ⟨S64x1024, .f32⟩
  | .local _ .vmem, ⟨6, _⟩ => ⟨S1024x64, .f32⟩
  | .local _ .vmem, ⟨7, _⟩ => ⟨S1024x64, .f32⟩
  | .local _ .vmem, ⟨8, _⟩ => ⟨S512x512, .f32⟩
  | .local _ .vmem, ⟨9, _⟩ => ⟨S512x512, .f32⟩
  | .local _ .vmem, ⟨10, _⟩ => ⟨S512x64, .f32⟩
  | .local _ .vmem, ⟨11, _⟩ => ⟨S64x1024, .f32⟩
  | .local _ .vmem, ⟨12, _⟩ => ⟨S64x1024, .f32⟩
  | .local _ .vmem, ⟨13, _⟩ => ⟨S1024x64, .f32⟩
  | .local _ .vmem, ⟨14, _⟩ => ⟨S1024x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x1, .f32⟩
  | .local _ .vmem, ⟨19, _⟩ => ⟨S512x1, .f32⟩
  | .local _ .vmem, ⟨20, _⟩ => ⟨S512x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_24 : BitVec 32 := 0#32
  let v46 : BitVec 1 := Scalar.cmpi .ne v45 c0_i32_24
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  inb_S512x64_S512x64_0_0 : ∀ a, (![0, 0] : Fin 2 → Nat) a + S512x64.size a ≤ S512x64.size a
  h_S512x64 : 0 < S512x64.numel
  transposes_S1024x64_p1_0_S64x1024 : S1024x64.Transposes [1, 0] S64x1024
  inb_S64x1024_S64x1024_0_0 : ∀ a, (![0, 0] : Fin 2 → Nat) a + S64x1024.size a ≤ S64x1024.size a
  h_S64x1024 : 0 < S64x1024.numel
  inb_S1024x64_S1024x64_0_0 : ∀ a, (![0, 0] : Fin 2 → Nat) a + S1024x64.size a ≤ S1024x64.size a
  h_S1024x64 : 0 < S1024x64.numel
  inb_S512x512_S512x512_0_0 : ∀ a, (![0, 0] : Fin 2 → Nat) a + S512x512.size a ≤ S512x512.size a
  h_S512x512 : 0 < S512x512.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  bitsLt_bf16_f32 : FTy.bits .bf16 < FTy.bits .f32
  shapeCasts_S64x1024_S64x1024 : S64x1024.ShapeCasts S64x1024
  reduces_S512x1024_S512 : S512x1024.Reduces [1] S512
  shapeCasts_S512_S512x1 : S512.ShapeCasts S512x1
  broadcasts_S512x1_S512x1024 : S512x1.Broadcasts S512x1024
  shapeCasts_S1024x64_S1024x64 : S1024x64.ShapeCasts S1024x64
  broadcasts_S512x1_S512x64 : S512x1.Broadcasts S512x64
  dot_S1024x512_S512x64_S1024x64_1_0_0_1_n_n_wf : DotDims.WF S1024x512 S512x64 S1024x64 [1] [0] [0] [1] [] []
  dot_S512x512_S512x64_S512x64_1_0_0_1_n_n_wf : DotDims.WF S512x512 S512x64 S512x64 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x8192.size a
  hwx0_3 : ∀ i : grid0.Coords, EltTy.bits .f32 = 32 ∨ (Rect.block (s := S64x8192) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x8192.size a
  hwx1_2 : ∀ i : grid1.Coords, EltTy.bits .f32 = 32 ∨ (Rect.block (s := S64x8192) S64x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S8192x64.size a
  hwx1_4 : ∀ i : grid1.Coords, EltTy.bits .f32 = 32 ∨ (Rect.block (s := S8192x64) S512x64.size (cc1_transform_4 i) (hinb1_4 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S64x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S64x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S512x64 : Shape := ⟨2, ![512, 64]⟩
abbrev S8192x64 : Shape := ⟨2, ![8192, 64]⟩
abbrev S_ : Shape := ⟨0, ![]⟩
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x64_S8192x64_1_0_0_1_n_n_wf : DotDims.WF S8192x512 S512x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.Region0.lean ====
/-
  The key/value projection region (the first kernel launch) at any float instance, at the buffer contents `V` the
  region is entered from. Its grid has 8 points; at point t the body reads the t-th block of 1024 rows of the
  embeddings (window 0) and the two whole weight matrices (windows 1, 2), and stores into the t-th block of 1024
  columns of the transposed keys (window 3) the transpose of the block's product with the key weights, and into the
  t-th block of 1024 rows of the values (window 4) the block's product with the value weights. The body keeps nothing
  between points. Stated here: what each output block holds after the body as a function of the input blocks, the
  body's triple, the region's proof data and the body obligation at every point.
-/
import proofs.«105404_j15710990369179_2_alg».proof.Proof.Gen.Kernel.Launch
import proofs.«105404_j15710990369179_2_alg».proof.Proof.Gen.Kernel.Skeleton
import proofs.«105404_j15710990369179_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rE : Rect S1024x512 := Rect.unit (s := S1024x512) ![0, 0] S1024x512.size inb_S1024x512_S1024x512_0_0
abbrev rW : Rect S512x64 := Rect.unit (s := S512x64) ![0, 0] S512x64.size inb_S512x64_S512x64_0_0
abbrev rKT : Rect S64x1024 := Rect.unit (s := S64x1024) ![0, 0] S64x1024.size inb_S64x1024_S64x1024_0_0
abbrev rVb : Rect S1024x64 := Rect.unit (s := S1024x64) ![0, 0] S1024x64.size inb_S1024x64_S1024x64_0_0

/-! ## What the body leaves in each output window's buffer -/

/-- The transposed-keys block after the body: the one store's payload, of the embeddings block and the key weights. -/
def out0_3 (x0 : Vec F S1024x512 .f32) (x1 : Vec F S512x64 .f32) : Vec F S64x1024 .f32 :=
  View.canon [⟨rKT, k0_pay2 (View.ld x0 rE) (View.ld x1 rW)⟩]
/-- The values block after the body: the one store's payload, of the embeddings block and the value weights. -/
def out0_4 (x0 : Vec F S1024x512 .f32) (x2 : Vec F S512x64 .f32) : Vec F S1024x64 .f32 :=
  View.canon [⟨rVb, k0_pay1 (View.ld x0 rE) (View.ld x2 rW)⟩]

theorem cover0_3 (p0 : Vec F S64x1024 .f32) (y : S64x1024.Idx) :
    ∃ pc ∈ ([⟨rKT, p0⟩] : List (View.Piece (Elt F) S64x1024 .f32)), y ∈ pc.1.set :=
  View.cover_of_tiled [⟨rKT, p0⟩] S64x1024.size (by rfl) y
theorem cover0_4 (p0 : Vec F S1024x64 .f32) (y : S1024x64.Idx) :
    ∃ pc ∈ ([⟨rVb, p0⟩] : List (View.Piece (Elt F) S1024x64 .f32)), y ∈ pc.1.set :=
  View.cover_of_tiled [⟨rVb, p0⟩] S1024x64.size (by rfl) y

/-! ## The body's triple -/

set_option maxHeartbeats 1000000 in
/-- The body on whole staging memrefs, the inputs' at contents `x0 x1 x2` and the outputs' at anything, runs to the
    continuation holding the inputs' as they were and each output's at its payload of the inputs. -/
theorem sound_kernel0 (c : Dev nD) (E : Set ℕ) (i : grid0.Coords)
    (arg1 : Memref sig .tc .vmem S1024x512 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S64x1024 .f32) (harg4 : arg4.IsWhole)
    (arg5 : Memref sig .tc .vmem S1024x64 .f32) (harg5 : arg5.IsWhole)
    (x0 : Vec F S1024x512 .f32) (x1 : Vec F S512x64 .f32) (x2 : Vec F S512x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The region's proof data -/

/-- The arrays as the region finds them; after the body at point `t` each input's buffer at its block and each
    output's at its payload of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.Runs.lean ====
/-
  The attention region (the second kernel launch) at any float instance: what its three case runs share. The grid is
  16 query tiles by 8 key/value tiles, the key/value axis innermost. The body branches twice on the key/value
  coordinate: at its first value it computes the query tile's projection and resets the running maximum, denominator and
  weighted sum, which it keeps in four scratch buffers between points; at its last value it divides the weighted sum by
  the denominator into the output block, which is idle (neither stored nor written back) at every other point.
-/
import proofs.«105404_j15710990369179_2_alg».proof.Proof.Gen.Kernel.Launch
import proofs.«105404_j15710990369179_2_alg».proof.Proof.Gen.Kernel.Skeleton
import proofs.«105404_j15710990369179_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first branch: the key/value coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch: the key/value coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key/value tile the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key/value tile it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
/-- The four scratch buffers: the query tile's projection, the running maximum, the running denominator, the running weighted sum. -/
abbrev scM1_0 : Memref sig .tc .vmem S512x64 .f32 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x64 .f32 := Memref.whole cc1_scratch3
abbrev VS1_0 : View sig .tc .vmem S512x64 .f32 := scM1_0.view
abbrev VS1_1 : View sig .tc .vmem S512x1 .f32 := scM1_1.view
abbrev VS1_2 : View sig .tc .vmem S512x1 .f32 := scM1_2.view
abbrev VS1_3 : View sig .tc .vmem S512x64 .f32 := scM1_3.view
/-- One staging buffer of the output window, through which its contents are stated. -/
abbrev VO1_4 : View sig .tc .vmem S512x64 .f32 := (Memref.whole cc1_stg4_0 : Memref sig .tc .vmem S512x64 .f32).view

/-- A scoped buffer of the other region, whole at some contents: the attention body never touches it. -/
abbrev oth (c : Dev nD) (b : Ref sig .tc) : sProp 𝕄 :=
  iprop(∃ f : Buf (Elt F) ((c : Thread nD τ).loc b), ((c : Thread nD τ).loc b) ↦{fullShare} f)

/-- The class invariant with the scratch buffers as memrefs owned at some contents. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
          ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.K.Region1.RunA.lean ====
/-
  The attention body's run at the first key/value tile of a query tile (the projection computed, the running state reset, then one online step): the pieces each scratch buffer ends with are found by the run itself.
-/
import proofs.«105404_j15710990369179_2_alg».proof.Proof.K.Region1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x512 .f32) (harg2 : arg2.IsWhole) (arg3 : Memref sig .tc .vmem S512x64 .f32) (harg3 : arg3.IsWhole) (arg4 : Memref sig .tc .vmem S64x1024 .f32) (harg4 : arg4.IsWhole) (arg5 : Memref sig .tc .vmem S1024x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (hc0 : cond1_0 i) (hc1 : ¬cond1_1 i)
    (x0 : Vec F S512x512 .f32) (x1 : Vec F S512x64 .f32) (x2 : Vec F S64x1024 .f32) (x3 : Vec F S1024x64 .f32) :
    Σ' (LS0 : List (View.Piece (Elt F) S512x64 .f32)) (LS1 : List (View.Piece (Elt F) S512x1 .f32)) (LS2 : List (View.Piece (Elt F) S512x1 .f32)), { LS3 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ⟨?_, fun xi4 E K => ?run⟩⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.Region1.RunB.lean ====
/-
  The attention body's run at a middle key/value tile (one online step from the running state the point before left): the pieces each scratch buffer ends with are found by the run itself.
-/
import proofs.«105404_j15710990369179_2_alg».proof.Proof.K.Region1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x512 .f32) (harg2 : arg2.IsWhole) (arg3 : Memref sig .tc .vmem S512x64 .f32) (harg3 : arg3.IsWhole) (arg4 : Memref sig .tc .vmem S64x1024 .f32) (harg4 : arg4.IsWhole) (arg5 : Memref sig .tc .vmem S1024x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (hc0 : ¬cond1_0 i) (hc1 : ¬cond1_1 i)
    (x0 : Vec F S512x512 .f32) (x1 : Vec F S512x64 .f32) (x2 : Vec F S64x1024 .f32) (x3 : Vec F S1024x64 .f32) (xs0 : Vec F S512x64 .f32) (xs1 : Vec F S512x1 .f32) (xs2 : Vec F S512x1 .f32) (xs3 : Vec F S512x64 .f32) :
    Σ' (LS1 : List (View.Piece (Elt F) S512x1 .f32)) (LS2 : List (View.Piece (Elt F) S512x1 .f32)), { LS3 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ⟨?_, fun xi4 E K => ?run⟩⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    isplitl [HS1]; · iexists _; iexact HS1
    isplitl [HS2]; · iexists _; iexact HS2
    iexists _; iexact HS3

end Cert.Kernel.Hand

end
-- ==== Proof.K.Region1.RunC.lean ====
/-
  The attention body's run at the last key/value tile (one online step, then the weighted sum divided by the denominator into the output block): the pieces each scratch buffer and the output buffer ends with are found by the run itself.
-/
import proofs.«105404_j15710990369179_2_alg».proof.Proof.K.Region1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x512 .f32) (harg2 : arg2.IsWhole) (arg3 : Memref sig .tc .vmem S512x64 .f32) (harg3 : arg3.IsWhole) (arg4 : Memref sig .tc .vmem S64x1024 .f32) (harg4 : arg4.IsWhole) (arg5 : Memref sig .tc .vmem S1024x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (hc0 : ¬cond1_0 i) (hc1 : cond1_1 i)
    (x0 : Vec F S512x512 .f32) (x1 : Vec F S512x64 .f32) (x2 : Vec F S64x1024 .f32) (x3 : Vec F S1024x64 .f32) (xs0 : Vec F S512x64 .f32) (xs1 : Vec F S512x1 .f32) (xs2 : Vec F S512x1 .f32) (xs3 : Vec F S512x64 .f32) :
    Σ' (L4 : List (View.Piece (Elt F) S512x64 .f32)) (LS1 : List (View.Piece (Elt F) S512x1 .f32)) (LS2 : List (View.Piece (Elt F) S512x1 .f32)), { LS3 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ⟨?_, fun E K => ?run⟩⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]; · iexists _; iexact HS1
    isplitl [HS2]; · iexists _; iexact HS2
    iexists _; iexact HS3

end Cert.Kernel.Hand

end
-- ==== Proof.K.Region1.lean ====
/-
  The attention region's frame half at the entry contents `V`: what each case of the body leaves in the four scratch
  buffers and in the output block, as the pieces its run found read back; what the buffers hold after each grid point,
  by recursion on the point (a query tile's first point starts afresh, every other point continues from what the point
  before left); the region's invariant, which from the first point on holds the four scratch buffers at exactly those
  contents; the proof data; and the body obligation at every point.
-/
import proofs.«105404_j15710990369179_2_alg».proof.Proof.K.Region1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- After a point: the output block's buffer, then the projection, the running maximum, the running denominator and
    the running weighted sum. -/
abbrev St (F : FTy → Type) [FloatOps F] : Type := Vec F S512x64 .f32 × Vec F S512x64 .f32 × Vec F S512x1 .f32 × Vec F S512x1 .f32 × Vec F S512x64 .f32

/-- The output buffer where the body stores nothing into it: a placeholder nothing consults. -/
def idleOut : Vec F S512x64 .f32 := VO1_4.read (Elt F) (VO1_4.writes (Elt F) VO1_4.junk [])

/-- A query tile's first point. -/
def caseA (c : Dev nD) (t : Fin cfg1.N) (h0 : t.val % 8 = 0) (h1 : ¬t.val % 8 = 7) : St F :=
  (idleOut,
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.1),
   VS1_3.read (Elt F) (VS1_3.writes (Elt F) VS1_3.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.1))
/-- A middle point, from what the point before left. -/
def caseB (c : Dev nD) (t : Fin cfg1.N) (h0 : ¬t.val % 8 = 0) (h1 : ¬t.val % 8 = 7) (p : St F) : St F :=
  (idleOut, p.2.1,
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.1),
   VS1_3.read (Elt F) (VS1_3.writes (Elt F) VS1_3.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.2.1))
/-- A query tile's last point, from what the point before left. -/
def caseC (c : Dev nD) (t : Fin cfg1.N) (h0 : ¬t.val % 8 = 0) (h1 : t.val % 8 = 7) (p : St F) : St F :=
  (VO1_4.read (Elt F) (VO1_4.writes (Elt F) VO1_4.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).1), p.2.1,
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.1),
   VS1_3.read (Elt F) (VS1_3.writes (Elt F) VS1_3.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.2.1))

/-! ## The pieces cover their buffers -/

theorem scoverA_0 (c : Dev nD) (t : Fin cfg1.N) (h0 : t.val % 8 = 0) (h1 : ¬t.val % 8 = 7) (y : S512x64.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).1 S512x64.size (by sl_kernel_rfl) y
theorem scoverA_1 (c : Dev nD) (t : Fin cfg1.N) (h0 : t.val % 8 = 0) (h1 : ¬t.val % 8 = 7) (y : S512x1.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.1 S512x1.size (by sl_kernel_rfl) y
theorem scoverA_2 (c : Dev nD) (t : Fin cfg1.N) (h0 : t.val % 8 = 0) (h1 : ¬t.val % 8 = 7) (y : S512x1.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.1 S512x1.size (by sl_kernel_rfl) y
theorem scoverA_3 (c : Dev nD) (t : Fin cfg1.N) (h0 : t.val % 8 = 0) (h1 : ¬t.val % 8 = 7) (y : S512x64.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.1 S512x64.size (by sl_kernel_rfl) y
theorem scoverB_1 (c : Dev nD) (t : Fin cfg1.N) (h0 : ¬t.val % 8 = 0) (h1 : ¬t.val % 8 = 7) (p : St F) (y : S512x1.Idx) : ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).1 S512x1.size (by sl_kernel_rfl) y
theorem scoverB_2 (c : Dev nD) (t : Fin cfg1.N) (h0 : ¬t.val % 8 = 0) (h1 : ¬t.val % 8 = 7) (p : St F) (y : S512x1.Idx) : ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.1 S512x1.size (by sl_kernel_rfl) y
theorem scoverB_3 (c : Dev nD) (t : Fin cfg1.N) (h0 : ¬t.val % 8 = 0) (h1 : ¬t.val % 8 = 7) (p : St F) (y : S512x64.Idx) : ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.2.1 S512x64.size (by sl_kernel_rfl) y
theorem coverC_4 (c : Dev nD) (t : Fin cfg1.N) (h0 : ¬t.val % 8 = 0) (h1 : t.val % 8 = 7) (p : St F) (y : S512x64.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).1 S512x64.size (by sl_kernel_rfl) y
theorem scoverC_1 (c : Dev nD) (t : Fin cfg1.N) (h0 : ¬t.val % 8 = 0) (h1 : t.val % 8 = 7) (p : St F) (y : S512x1.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.1 S512x1.size (by sl_kernel_rfl) y
theorem scoverC_2 (c : Dev nD) (t : Fin cfg1.N) (h0 : ¬t.val % 8 = 0) (h1 : t.val % 8 = 7) (p : St F) (y : S512x1.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.1 S512x1.size (by sl_kernel_rfl) y
theorem scoverC_3 (c : Dev nD) (t : Fin cfg1.N) (h0 : ¬t.val % 8 = 0) (h1 : t.val % 8 = 7) (p : St F) (y : S512x64.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.2.1 S512x64.size (by sl_kernel_rfl) y

/-! ## What the buffers hold after each point -/

def outsAt1 (c : Dev nD) : (n : ℕ) → n < cfg1.N → St F
  | 0, hn => caseA V c ⟨0, hn⟩ (Nat.zero_mod _) (by simp)
  | n + 1, hn =>
    if h0 : (n + 1) % 8 = 0 then
      if h1 : (n + 1) % 8 = 7 then False.elim (by omega)
      else caseA V c ⟨n + 1, hn⟩ h0 h1
    else
      if h1 : (n + 1) % 8 = 7 then caseC V c ⟨n + 1, hn⟩ h0 h1 (outsAt1 c n (Nat.lt_of_succ_lt hn))
      else caseB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = caseA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = caseB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the class's invariant (every scratch buffer at anything); after point `n` the four scratch
    buffers at what that point left, the other region's scoped buffers at anything, the generator register at some state. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2.1 ∗ owns (c : Thread nD τ) scM1_3 fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2.1 ∗ owns (c : Thread nD τ) scM1_3 fullShare (outsAt1 V c n hn).2.2.2.2) ∗ (∃ r, prngReg c r)) := rfl
theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
      ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 128 := lt_of_lt_of_eq t.isLt (show cfg1.N = 128 from N_1)
  by_cases h0 : t.val % 8 = 0
  · by_cases h1 : t.val % 8 = 7
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold caseA; (try dsimp only)
      by_cases hz : t.val = 0
      · rw [PhiS_castSucc V c t, PhiS_zero V c _ _ hz, PhiA1_eq]
        iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [Ho1 Ho2 Ho3 Ho4 Ho5 Ho6 Ho7 Ho8 HS0 HS1 HS2 HS3 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [Ho8]; · iexact Ho8
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          · unfold owns; iexists _; isplitr
            swap; · iexact HS3
            ipureintro; exact View.read_writes_of_cover _ _ _ _ _ (scoverA_3 V c t h0 h1)
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [Ho1 Ho2 Ho3 Ho4 Ho5 Ho6 Ho7 Ho8 HS0 HS1 HS2 HS3 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [Ho8]; · iexact Ho8
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          · unfold owns; iexists _; isplitr
            swap; · iexact HS3
            ipureintro; exact View.read_writes_of_cover _ _ _ _ _ (scoverA_3 V c t h0 h1)
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold caseC; (try dsimp only)
      rw [PhiS_castSucc V c t, PhiS_pos V c _ _ hz]
      iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [Ho1 Ho2 Ho3 Ho4 Ho5 Ho6 Ho7 Ho8 HS0 HS1 HS2 HS3 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        isplitl [Ho8]; · iexact Ho8
        isplitl [HS0]; · iexact HS0
        isplitl [HS1]
        · unfold owns; iexists _; isplitr
          swap; · iexact HS1
          ipureintro; exact View.read_writes_of_cover _ _ _ _ _ (scoverC_1 V c t h0 h1 _)
        isplitl [HS2]
        · unfold owns; iexists _; isplitr
          swap; · iexact HS2
          ipureintro; exact View.read_writes_of_cover _ _ _ _ _ (scoverC_2 V c t h0 h1 _)
        · unfold owns; iexists _; isplitr
          swap; · iexact HS3
          ipureintro; exact View.read_writes_of_cover _ _ _ _ _ (scoverC_3 V c t h0 h1 _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 V c t h0 h1 _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold caseB; (try dsimp only)
      rw [PhiS_castSucc V c t, PhiS_pos V c _ _ hz]
      iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [Ho1 Ho2 Ho3 Ho4 Ho5 Ho6 Ho7 Ho8 HS0 HS1 HS2 HS3 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        isplitl [Ho8]; · iexact Ho8
        isplitl [HS0]; · iexact HS0
        isplitl [HS1]
        · unfold owns; iexists _; isplitr
          swap; · iexact HS1
          ipureintro; exact View.read_writes_of_cover _ _ _ _ _ (scoverB_1 V c t h0 h1 _)
        isplitl [HS2]
        · unfold owns; iexists _; isplitr
          swap; · iexact HS2
          ipureintro; exact View.read_writes_of_cover _ _ _ _ _ (scoverB_2 V c t h0 h1 _)
        · unfold owns; iexists _; isplitr
          swap; · iexact HS3
          ipureintro; exact View.read_writes_of_cover _ _ _ _ _ (scoverB_3 V c t h0 h1 _)
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨Ho1, Ho2, Ho3, Ho4, Ho5, Ho6, Ho7, Ho8, HS0, HS1, HS2, HS3⟩, Hg⟩
  isplitr [Hg]
  swap; · iexact Hg
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [HS0]; · iexists _; iexact HS0
  isplitl [HS1]; · iexists _; iexact HS1
  isplitl [HS2]; · iexists _; iexact HS2
  iexists _; iexact HS3

end Cert.Kernel.Hand

end
-- ==== Proof.K.Run.lean ====
/-
  The run of the whole program at any float instance: the two kernel launches one after the other, each entered from the
  buffer contents the one before left. After the first launch the transposed keys and the values hold what its
  write-backs leave and every other buffer is as launched; after the second the result array holds what its write-backs
  leave. Every weakly fair execution terminates, nothing faults, and the final memory holds each unscoped buffer at the
  last of these contents: the five argument arrays as launched, the result at the attention region's final array.
-/
import proofs.«105404_j15710990369179_2_alg».proof.Proof.K.Region0
import proofs.«105404_j15710990369179_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev VA : (c : Dev nD) → (b : Ref sig .tc) → Buf (Elt F) ((c : Thread nD τ).loc b) := fun c b => W0 m c b
/-- After the key/value projection region: its arrays at what the write-backs leave, the rest as launched. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)
/-- After the attention region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## The arguments end as launched: a region reads an argument through an input window or bypasses it -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (VB m) c).arrAt_in 0 rfl _).trans (A_eq1 (VB m) c 0))
    _ = W0 m c (Proc.devRef .tc main_arg0) := W1_of_ne m c main_arg0 (by decide)
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (VA m) c).arrAt_in 0 rfl _).trans (A_eq0 (VA m) c 0))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 1).trans (((dat1 (VB m) c).arrAt_in 1 rfl _).trans (A_eq1 (VB m) c 1))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 1).trans (((dat0 (VA m) c).arrAt_in 1 rfl _).trans (A_eq0 (VA m) c 1))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 2).trans (((dat0 (VA m) c).arrAt_in 2 rfl _).trans (A_eq0 (VA m) c 2))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (VB m) c).Φ (Fin.last cfg1.N) from rfl]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN: every weakly fair execution terminates, nothing faulting, and every final memory holds the result array at
    the attention region's final array and the five arguments as launched. -/
theorem run_all : θ_run defs (onTc (τ := τ) (main (F := F))) ⟨m, fun _ => 0, ρ⟩ (fun r => ∀ c : Dev nD,
      r.2.mem ((c.tc : Thread nD τ).loc main_v1) = (dat1 (VB m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => by
      show iprop(StableHlo.held (c : Thread nD τ) (Pipeline.ucRefs τ sig) (W2 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_arr m c 4),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c)⟩)

/-- What the attention region finds in the transposed-keys and values arrays: what the projection region's write-backs left. -/
theorem VB_keysT (c : Dev nD) : VB m c main_v0_0 = (dat0 (VA m) c).arrAt 3 cfg0.N := W1_arr m c 3
theorem VB_values (c : Dev nD) : VB m c main_v0_1 = (dat0 (VA m) c).arrAt 4 cfg0.N := W1_arr m c 4
theorem VB_main_arg0 (c : Dev nD) : VB m c main_arg0 = m ((c : Thread nD τ).loc main_arg0) := W1_of_ne m c main_arg0 (by decide)
theorem VB_main_arg2 (c : Dev nD) : VB m c main_arg2 = m ((c : Thread nD τ).loc main_arg2) := W1_of_ne m c main_arg2 (by decide)

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_all m ρ)

end Cert.Kernel.Hand

end
-- ==== Proof.KI.Region0.lean ====
/-
  The key/value projection region (the first kernel launch) at any float instance, at the buffer contents `V` the
  region is entered from. Its grid has 8 points; at point t the body reads the t-th block of 1024 rows of the
  embeddings (window 0) and the two whole weight matrices (windows 1, 2), and stores into the t-th block of 1024
  columns of the transposed keys (window 3) the transpose of the block's product with the key weights, and into the
  t-th block of 1024 rows of the values (window 4) the block's product with the value weights. The body keeps nothing
  between points. Stated here: what each output block holds after the body as a function of the input blocks, the
  body's triple, the region's proof data and the body obligation at every point.
-/
import proofs.«105404_j15710990369179_2_alg».proof.Proof.Gen.KernelIdeal.Launch
import proofs.«105404_j15710990369179_2_alg».proof.Proof.Gen.KernelIdeal.Skeleton
import proofs.«105404_j15710990369179_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rE : Rect S1024x512 := Rect.unit (s := S1024x512) ![0, 0] S1024x512.size inb_S1024x512_S1024x512_0_0
abbrev rW : Rect S512x64 := Rect.unit (s := S512x64) ![0, 0] S512x64.size inb_S512x64_S512x64_0_0
abbrev rKT : Rect S64x1024 := Rect.unit (s := S64x1024) ![0, 0] S64x1024.size inb_S64x1024_S64x1024_0_0
abbrev rVb : Rect S1024x64 := Rect.unit (s := S1024x64) ![0, 0] S1024x64.size inb_S1024x64_S1024x64_0_0

/-! ## What the body leaves in each output window's buffer -/

/-- The transposed-keys block after the body: the one store's payload, of the embeddings block and the key weights. -/
def out0_3 (x0 : Vec F S1024x512 .f32) (x1 : Vec F S512x64 .f32) : Vec F S64x1024 .f32 :=
  View.canon [⟨rKT, k0_pay2 (View.ld x0 rE) (View.ld x1 rW)⟩]
/-- The values block after the body: the one store's payload, of the embeddings block and the value weights. -/
def out0_4 (x0 : Vec F S1024x512 .f32) (x2 : Vec F S512x64 .f32) : Vec F S1024x64 .f32 :=
  View.canon [⟨rVb, k0_pay1 (View.ld x0 rE) (View.ld x2 rW)⟩]

theorem cover0_3 (p0 : Vec F S64x1024 .f32) (y : S64x1024.Idx) :
    ∃ pc ∈ ([⟨rKT, p0⟩] : List (View.Piece (Elt F) S64x1024 .f32)), y ∈ pc.1.set :=
  View.cover_of_tiled [⟨rKT, p0⟩] S64x1024.size (by rfl) y
theorem cover0_4 (p0 : Vec F S1024x64 .f32) (y : S1024x64.Idx) :
    ∃ pc ∈ ([⟨rVb, p0⟩] : List (View.Piece (Elt F) S1024x64 .f32)), y ∈ pc.1.set :=
  View.cover_of_tiled [⟨rVb, p0⟩] S1024x64.size (by rfl) y

/-! ## The body's triple -/

set_option maxHeartbeats 1000000 in
/-- The body on whole staging memrefs, the inputs' at contents `x0 x1 x2` and the outputs' at anything, runs to the
    continuation holding the inputs' as they were and each output's at its payload of the inputs. -/
theorem sound_kernel0 (c : Dev nD) (E : Set ℕ) (i : grid0.Coords)
    (arg1 : Memref sig .tc .vmem S1024x512 .f32) (harg1 : arg1.IsWhole) (arg2 : Memref sig .tc .vmem S512x64 .f32) (harg2 : arg2.IsWhole)
    (arg3 : Memref sig .tc .vmem S512x64 .f32) (harg3 : arg3.IsWhole) (arg4 : Memref sig .tc .vmem S64x1024 .f32) (harg4 : arg4.IsWhole)
    (arg5 : Memref sig .tc .vmem S1024x64 .f32) (harg5 : arg5.IsWhole)
    (x0 : Vec F S1024x512 .f32) (x1 : Vec F S512x64 .f32) (x2 : Vec F S512x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The region's proof data -/

/-- The arrays as the region finds them; after the body at point `t` each input's buffer at its block and each
    output's at its payload of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.Runs.lean ====
/-
  The attention region (the second kernel launch) at any float instance: what its three case runs share. The grid is
  16 query tiles by 8 key/value tiles, the key/value axis innermost. The body branches twice on the key/value
  coordinate: at its first value it computes the query tile's projection and resets the running maximum, denominator and
  weighted sum, which it keeps in four scratch buffers between points; at its last value it divides the weighted sum by
  the denominator into the output block, which is idle (neither stored nor written back) at every other point.
-/
import proofs.«105404_j15710990369179_2_alg».proof.Proof.Gen.KernelIdeal.Launch
import proofs.«105404_j15710990369179_2_alg».proof.Proof.Gen.KernelIdeal.Skeleton
import proofs.«105404_j15710990369179_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, decided over the grid -/

/-- The first branch: the key/value coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch: the key/value coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key/value tile the output window is idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key/value tile it is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
/-- The four scratch buffers: the query tile's projection, the running maximum, the running denominator, the running weighted sum. -/
abbrev scM1_0 : Memref sig .tc .vmem S512x64 .f32 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x64 .f32 := Memref.whole cc1_scratch3
abbrev VS1_0 : View sig .tc .vmem S512x64 .f32 := scM1_0.view
abbrev VS1_1 : View sig .tc .vmem S512x1 .f32 := scM1_1.view
abbrev VS1_2 : View sig .tc .vmem S512x1 .f32 := scM1_2.view
abbrev VS1_3 : View sig .tc .vmem S512x64 .f32 := scM1_3.view
/-- One staging buffer of the output window, through which its contents are stated. -/
abbrev VO1_4 : View sig .tc .vmem S512x64 .f32 := (Memref.whole cc1_stg4_0 : Memref sig .tc .vmem S512x64 .f32).view

/-- A scoped buffer of the other region, whole at some contents: the attention body never touches it. -/
abbrev oth (c : Dev nD) (b : Ref sig .tc) : sProp 𝕄 :=
  iprop(∃ f : Buf (Elt F) ((c : Thread nD τ).loc b), ((c : Thread nD τ).loc b) ↦{fullShare} f)

/-- The class invariant with the scratch buffers as memrefs owned at some contents. -/
theorem PhiA1_eq (c : Dev nD) :
    (Pipeline.ΦA spec1 c : sProp 𝕄)
      = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
          ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KI.Region1.RunA.lean ====
/-
  The attention body's run at the first key/value tile of a query tile (the projection computed, the running state reset, then one online step): the pieces each scratch buffer ends with are found by the run itself.
-/
import proofs.«105404_j15710990369179_2_alg».proof.Proof.KI.Region1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x512 .f32) (harg2 : arg2.IsWhole) (arg3 : Memref sig .tc .vmem S512x64 .f32) (harg3 : arg3.IsWhole) (arg4 : Memref sig .tc .vmem S64x1024 .f32) (harg4 : arg4.IsWhole) (arg5 : Memref sig .tc .vmem S1024x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (hc0 : cond1_0 i) (hc1 : ¬cond1_1 i)
    (x0 : Vec F S512x512 .f32) (x1 : Vec F S512x64 .f32) (x2 : Vec F S64x1024 .f32) (x3 : Vec F S1024x64 .f32) :
    Σ' (LS0 : List (View.Piece (Elt F) S512x64 .f32)) (LS1 : List (View.Piece (Elt F) S512x1 .f32)) (LS2 : List (View.Piece (Elt F) S512x1 .f32)), { LS3 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ⟨?_, fun xi4 E K => ?run⟩⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.Region1.RunB.lean ====
/-
  The attention body's run at a middle key/value tile (one online step from the running state the point before left): the pieces each scratch buffer ends with are found by the run itself.
-/
import proofs.«105404_j15710990369179_2_alg».proof.Proof.KI.Region1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x512 .f32) (harg2 : arg2.IsWhole) (arg3 : Memref sig .tc .vmem S512x64 .f32) (harg3 : arg3.IsWhole) (arg4 : Memref sig .tc .vmem S64x1024 .f32) (harg4 : arg4.IsWhole) (arg5 : Memref sig .tc .vmem S1024x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (hc0 : ¬cond1_0 i) (hc1 : ¬cond1_1 i)
    (x0 : Vec F S512x512 .f32) (x1 : Vec F S512x64 .f32) (x2 : Vec F S64x1024 .f32) (x3 : Vec F S1024x64 .f32) (xs0 : Vec F S512x64 .f32) (xs1 : Vec F S512x1 .f32) (xs2 : Vec F S512x1 .f32) (xs3 : Vec F S512x64 .f32) :
    Σ' (LS1 : List (View.Piece (Elt F) S512x1 .f32)) (LS2 : List (View.Piece (Elt F) S512x1 .f32)), { LS3 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ⟨?_, fun xi4 E K => ?run⟩⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    isplitl [HS1]; · iexists _; iexact HS1
    isplitl [HS2]; · iexists _; iexact HS2
    iexists _; iexact HS3

end Cert.KernelIdeal.Hand

end
-- ==== Proof.KI.Region1.RunC.lean ====
/-
  The attention body's run at the last key/value tile (one online step, then the weighted sum divided by the denominator into the output block): the pieces each scratch buffer and the output buffer ends with are found by the run itself.
-/
import proofs.«105404_j15710990369179_2_alg».proof.Proof.KI.Region1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x512 .f32) (harg2 : arg2.IsWhole) (arg3 : Memref sig .tc .vmem S512x64 .f32) (harg3 : arg3.IsWhole) (arg4 : Memref sig .tc .vmem S64x1024 .f32) (harg4 : arg4.IsWhole) (arg5 : Memref sig .tc .vmem S1024x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (hc0 : ¬cond1_0 i) (hc1 : cond1_1 i)
    (x0 : Vec F S512x512 .f32) (x1 : Vec F S512x64 .f32) (x2 : Vec F S64x1024 .f32) (x3 : Vec F S1024x64 .f32) (xs0 : Vec F S512x64 .f32) (xs1 : Vec F S512x1 .f32) (xs2 : Vec F S512x1 .f32) (xs3 : Vec F S512x64 .f32) :
    Σ' (L4 : List (View.Piece (Elt F) S512x64 .f32)) (LS1 : List (View.Piece (Elt F) S512x1 .f32)) (LS2 : List (View.Piece (Elt F) S512x1 .f32)), { LS3 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ⟨?_, fun E K => ?run⟩⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]; · iexists _; iexact HS1
    isplitl [HS2]; · iexists _; iexact HS2
    iexists _; iexact HS3

end Cert.KernelIdeal.Hand

end
-- ==== Proof.KI.Region1.lean ====
/-
  The attention region's frame half at the entry contents `V`: what each case of the body leaves in the four scratch
  buffers and in the output block, as the pieces its run found read back; what the buffers hold after each grid point,
  by recursion on the point (a query tile's first point starts afresh, every other point continues from what the point
  before left); the region's invariant, which from the first point on holds the four scratch buffers at exactly those
  contents; the proof data; and the body obligation at every point.
-/
import proofs.«105404_j15710990369179_2_alg».proof.Proof.KI.Region1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- After a point: the output block's buffer, then the projection, the running maximum, the running denominator and
    the running weighted sum. -/
abbrev St (F : FTy → Type) [FloatOps F] : Type := Vec F S512x64 .f32 × Vec F S512x64 .f32 × Vec F S512x1 .f32 × Vec F S512x1 .f32 × Vec F S512x64 .f32

/-- The output buffer where the body stores nothing into it: a placeholder nothing consults. -/
def idleOut : Vec F S512x64 .f32 := VO1_4.read (Elt F) (VO1_4.writes (Elt F) VO1_4.junk [])

/-- A query tile's first point. -/
def caseA (c : Dev nD) (t : Fin cfg1.N) (h0 : t.val % 8 = 0) (h1 : ¬t.val % 8 = 7) : St F :=
  (idleOut,
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.1),
   VS1_3.read (Elt F) (VS1_3.writes (Elt F) VS1_3.junk (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.1))
/-- A middle point, from what the point before left. -/
def caseB (c : Dev nD) (t : Fin cfg1.N) (h0 : ¬t.val % 8 = 0) (h1 : ¬t.val % 8 = 7) (p : St F) : St F :=
  (idleOut, p.2.1,
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.1),
   VS1_3.read (Elt F) (VS1_3.writes (Elt F) VS1_3.junk (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.2.1))
/-- A query tile's last point, from what the point before left. -/
def caseC (c : Dev nD) (t : Fin cfg1.N) (h0 : ¬t.val % 8 = 0) (h1 : t.val % 8 = 7) (p : St F) : St F :=
  (VO1_4.read (Elt F) (VO1_4.writes (Elt F) VO1_4.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).1), p.2.1,
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.1),
   VS1_3.read (Elt F) (VS1_3.writes (Elt F) VS1_3.junk (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.2.1))

/-! ## The pieces cover their buffers -/

theorem scoverA_0 (c : Dev nD) (t : Fin cfg1.N) (h0 : t.val % 8 = 0) (h1 : ¬t.val % 8 = 7) (y : S512x64.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).1 S512x64.size (by sl_kernel_rfl) y
theorem scoverA_1 (c : Dev nD) (t : Fin cfg1.N) (h0 : t.val % 8 = 0) (h1 : ¬t.val % 8 = 7) (y : S512x1.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.1 S512x1.size (by sl_kernel_rfl) y
theorem scoverA_2 (c : Dev nD) (t : Fin cfg1.N) (h0 : t.val % 8 = 0) (h1 : ¬t.val % 8 = 7) (y : S512x1.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.1 S512x1.size (by sl_kernel_rfl) y
theorem scoverA_3 (c : Dev nD) (t : Fin cfg1.N) (h0 : t.val % 8 = 0) (h1 : ¬t.val % 8 = 7) (y : S512x64.Idx) : ∃ pc ∈ (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.1 S512x64.size (by sl_kernel_rfl) y
theorem scoverB_1 (c : Dev nD) (t : Fin cfg1.N) (h0 : ¬t.val % 8 = 0) (h1 : ¬t.val % 8 = 7) (p : St F) (y : S512x1.Idx) : ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).1 S512x1.size (by sl_kernel_rfl) y
theorem scoverB_2 (c : Dev nD) (t : Fin cfg1.N) (h0 : ¬t.val % 8 = 0) (h1 : ¬t.val % 8 = 7) (p : St F) (y : S512x1.Idx) : ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.1 S512x1.size (by sl_kernel_rfl) y
theorem scoverB_3 (c : Dev nD) (t : Fin cfg1.N) (h0 : ¬t.val % 8 = 0) (h1 : ¬t.val % 8 = 7) (p : St F) (y : S512x64.Idx) : ∃ pc ∈ (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2).2.2.1 S512x64.size (by sl_kernel_rfl) y
theorem coverC_4 (c : Dev nD) (t : Fin cfg1.N) (h0 : ¬t.val % 8 = 0) (h1 : t.val % 8 = 7) (p : St F) (y : S512x64.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).1 S512x64.size (by sl_kernel_rfl) y
theorem scoverC_1 (c : Dev nD) (t : Fin cfg1.N) (h0 : ¬t.val % 8 = 0) (h1 : t.val % 8 = 7) (p : St F) (y : S512x1.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.1 S512x1.size (by sl_kernel_rfl) y
theorem scoverC_2 (c : Dev nD) (t : Fin cfg1.N) (h0 : ¬t.val % 8 = 0) (h1 : t.val % 8 = 7) (p : St F) (y : S512x1.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.1 S512x1.size (by sl_kernel_rfl) y
theorem scoverC_3 (c : Dev nD) (t : Fin cfg1.N) (h0 : ¬t.val % 8 = 0) (h1 : t.val % 8 = 7) (p : St F) (y : S512x64.Idx) : ∃ pc ∈ (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2).2.2.2.1 S512x64.size (by sl_kernel_rfl) y

/-! ## What the buffers hold after each point -/

def outsAt1 (c : Dev nD) : (n : ℕ) → n < cfg1.N → St F
  | 0, hn => caseA V c ⟨0, hn⟩ (Nat.zero_mod _) (by simp)
  | n + 1, hn =>
    if h0 : (n + 1) % 8 = 0 then
      if h1 : (n + 1) % 8 = 7 then False.elim (by omega)
      else caseA V c ⟨n + 1, hn⟩ h0 h1
    else
      if h1 : (n + 1) % 8 = 7 then caseC V c ⟨n + 1, hn⟩ h0 h1 (outsAt1 c n (Nat.lt_of_succ_lt hn))
      else caseB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = caseA V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = caseB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = caseC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point the class's invariant (every scratch buffer at anything); after point `n` the four scratch
    buffers at what that point left, the other region's scoped buffers at anything, the generator register at some state. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2.1 ∗ owns (c : Thread nD τ) scM1_3 fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2.1 ∗ owns (c : Thread nD τ) scM1_3 fullShare (outsAt1 V c n hn).2.2.2.2) ∗ (∃ r, prngReg c r)) := rfl
theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg2_0 ∗ oth c cc0_stg3_0 ∗ oth c cc0_stg3_1 ∗ oth c cc0_stg4_0 ∗ oth c cc0_stg4_1
      ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 128 := lt_of_lt_of_eq t.isLt (show cfg1.N = 128 from N_1)
  by_cases h0 : t.val % 8 = 0
  · by_cases h1 : t.val % 8 = 7
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold caseA; (try dsimp only)
      by_cases hz : t.val = 0
      · rw [PhiS_castSucc V c t, PhiS_zero V c _ _ hz, PhiA1_eq]
        iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        isplitl [HS3]; · iexact HS3
        iintro ⟨H0, H1, H2, H3, H4, ⟨%es0, HS0⟩, ⟨%es1, HS1⟩, ⟨%es2, HS2⟩, ⟨%es3, HS3⟩⟩
        isplitl [Ho1 Ho2 Ho3 Ho4 Ho5 Ho6 Ho7 Ho8 HS0 HS1 HS2 HS3 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [Ho8]; · iexact Ho8
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          · unfold owns; iexists _; isplitr
            swap; · iexact HS3
            ipureintro; exact View.read_writes_of_cover _ _ _ _ _ (scoverA_3 V c t h0 h1)
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        isplitl [HS3]; · iexists _; iexact HS3
        iintro ⟨H0, H1, H2, H3, H4, ⟨%es0, HS0⟩, ⟨%es1, HS1⟩, ⟨%es2, HS2⟩, ⟨%es3, HS3⟩⟩
        isplitl [Ho1 Ho2 Ho3 Ho4 Ho5 Ho6 Ho7 Ho8 HS0 HS1 HS2 HS3 Hg]
        · isplitr [Hg]
          swap; · iexact Hg
          isplitl [Ho1]; · iexact Ho1
          isplitl [Ho2]; · iexact Ho2
          isplitl [Ho3]; · iexact Ho3
          isplitl [Ho4]; · iexact Ho4
          isplitl [Ho5]; · iexact Ho5
          isplitl [Ho6]; · iexact Ho6
          isplitl [Ho7]; · iexact Ho7
          isplitl [Ho8]; · iexact Ho8
          isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          · unfold owns; iexists _; isplitr
            swap; · iexact HS3
            ipureintro; exact View.read_writes_of_cover _ _ _ _ _ (scoverA_3 V c t h0 h1)
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold caseC; (try dsimp only)
      rw [PhiS_castSucc V c t, PhiS_pos V c _ _ hz]
      iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, HS0, ⟨%es1, HS1⟩, ⟨%es2, HS2⟩, ⟨%es3, HS3⟩⟩
      isplitl [Ho1 Ho2 Ho3 Ho4 Ho5 Ho6 Ho7 Ho8 HS0 HS1 HS2 HS3 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        isplitl [Ho8]; · iexact Ho8
        isplitl [HS0]; · iexact HS0
        isplitl [HS1]
        · unfold owns; iexists _; isplitr
          swap; · iexact HS1
          ipureintro; exact View.read_writes_of_cover _ _ _ _ _ (scoverC_1 V c t h0 h1 _)
        isplitl [HS2]
        · unfold owns; iexists _; isplitr
          swap; · iexact HS2
          ipureintro; exact View.read_writes_of_cover _ _ _ _ _ (scoverC_2 V c t h0 h1 _)
        · unfold owns; iexists _; isplitr
          swap; · iexact HS3
          ipureintro; exact View.read_writes_of_cover _ _ _ _ _ (scoverC_3 V c t h0 h1 _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 V c t h0 h1 _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold caseB; (try dsimp only)
      rw [PhiS_castSucc V c t, PhiS_pos V c _ _ hz]
      iintro ⟨⟨⟨Ho1, Ho2, Ho3, Ho4, Ho5, Ho6, Ho7, Ho8, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, ⟨%es1, HS1⟩, ⟨%es2, HS2⟩, ⟨%es3, HS3⟩⟩
      isplitl [Ho1 Ho2 Ho3 Ho4 Ho5 Ho6 Ho7 Ho8 HS0 HS1 HS2 HS3 Hg]
      · isplitr [Hg]
        swap; · iexact Hg
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        isplitl [Ho7]; · iexact Ho7
        isplitl [Ho8]; · iexact Ho8
        isplitl [HS0]; · iexact HS0
        isplitl [HS1]
        · unfold owns; iexists _; isplitr
          swap; · iexact HS1
          ipureintro; exact View.read_writes_of_cover _ _ _ _ _ (scoverB_1 V c t h0 h1 _)
        isplitl [HS2]
        · unfold owns; iexists _; isplitr
          swap; · iexact HS2
          ipureintro; exact View.read_writes_of_cover _ _ _ _ _ (scoverB_2 V c t h0 h1 _)
        · unfold owns; iexists _; isplitr
          swap; · iexact HS3
          ipureintro; exact View.read_writes_of_cover _ _ _ _ _ (scoverB_3 V c t h0 h1 _)
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨⟨Ho1, Ho2, Ho3, Ho4, Ho5, Ho6, Ho7, Ho8, HS0, HS1, HS2, HS3⟩, Hg⟩
  isplitr [Hg]
  swap; · iexact Hg
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [HS0]; · iexists _; iexact HS0
  isplitl [HS1]; · iexists _; iexact HS1
  isplitl [HS2]; · iexists _; iexact HS2
  iexists _; iexact HS3

end Cert.KernelIdeal.Hand

end
-- ==== Proof.KI.Run.lean ====
/-
  The run of the whole program at any float instance: the two kernel launches one after the other, each entered from the
  buffer contents the one before left. After the first launch the transposed keys and the values hold what its
  write-backs leave and every other buffer is as launched; after the second the result array holds what its write-backs
  leave. Every weakly fair execution terminates, nothing faults, and the final memory holds each unscoped buffer at the
  last of these contents: the five argument arrays as launched, the result at the attention region's final array.
-/
import proofs.«105404_j15710990369179_2_alg».proof.Proof.KI.Region0
import proofs.«105404_j15710990369179_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev VA : (c : Dev nD) → (b : Ref sig .tc) → Buf (Elt F) ((c : Thread nD τ).loc b) := fun c b => W0 m c b
/-- After the key/value projection region: its arrays at what the write-backs leave, the rest as launched. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (dat0 (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)
/-- After the attention region. -/
def W2 (c : Dev nD) : Valuation τ sig (Elt F) :=
  Pipeline.withArrays spec1 c (W1 m c) fun w => (dat1 (VB m) c).arrAt w cfg1.N
theorem W2_arr (c : Dev nD) (w : Fin cfg1.W) :
    W2 m c (Proc.devRef .tc (Pipeline.arrRef spec1 w)) = (dat1 (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt F) ((c : Thread nD τ).loc b) := fun c b => W2 m c b
theorem hF1 (c : Dev nD) (w : Fin cfg1.W) : (dat1 (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## The arguments end as launched: a region reads an argument through an input window or bypasses it -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (VB m) c).arrAt_in 0 rfl _).trans (A_eq1 (VB m) c 0))
    _ = W0 m c (Proc.devRef .tc main_arg0) := W1_of_ne m c main_arg0 (by decide)
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (VA m) c).arrAt_in 0 rfl _).trans (A_eq0 (VA m) c 0))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := (W2_arr m c 1).trans (((dat1 (VB m) c).arrAt_in 1 rfl _).trans (A_eq1 (VB m) c 1))
    _ = W0 m c (Proc.devRef .tc main_arg2) := W1_of_ne m c main_arg2 (by decide)
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 1).trans (((dat0 (VA m) c).arrAt_in 1 rfl _).trans (A_eq0 (VA m) c 1))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 2).trans (((dat0 (VA m) c).arrAt_in 2 rfl _).trans (A_eq0 (VA m) c 2))
    _ = m ((c : Thread nD τ).loc main_arg4) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (VB m) c).Φ (Fin.last cfg1.N) from rfl]
    refine (hout1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN: every weakly fair execution terminates, nothing faulting, and every final memory holds the result array at
    the attention region's final array and the five arguments as launched. -/
theorem run_all : θ_run defs (onTc (τ := τ) (main (F := F))) ⟨m, fun _ => 0, ρ⟩ (fun r => ∀ c : Dev nD,
      r.2.mem ((c.tc : Thread nD τ).loc main_v1) = (dat1 (VB m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => by
      show iprop(StableHlo.held (c : Thread nD τ) (Pipeline.ucRefs τ sig) (W2 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_arr m c 4),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c)⟩)

/-- What the attention region finds in the transposed-keys and values arrays: what the projection region's write-backs left. -/
theorem VB_keysT (c : Dev nD) : VB m c main_v0_0 = (dat0 (VA m) c).arrAt 3 cfg0.N := W1_arr m c 3
theorem VB_values (c : Dev nD) : VB m c main_v0_1 = (dat0 (VA m) c).arrAt 4 cfg0.N := W1_arr m c 4
theorem VB_main_arg0 (c : Dev nD) : VB m c main_arg0 = m ((c : Thread nD τ).loc main_arg0) := W1_of_ne m c main_arg0 (by decide)
theorem VB_main_arg2 (c : Dev nD) : VB m c main_arg2 = m ((c : Thread nD τ).loc main_arg2) := W1_of_ne m c main_arg2 (by decide)

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_all m ρ)

end Cert.KernelIdeal.Hand

end
-- ==== Proof.Spec.lean ====
/-
  The specification: softmax attention over projected queries, keys and values, stated index by index on the
  extended reals.  With q = x·wq, k = e·wk, v = e·wv (each a sum over the 512 input features), the score of query
  row r against key row n is the inner product of q's row r with k's row n over the 64 head dimensions, times a
  scale c; the result at (r, d) is the sum over n of exp(score − M)/L times v(n, d), where M is the row's largest
  score and L the row's sum of exp(score − M).
-/
import Idealize.ShloMosaic.PureOps.Ideal
import Idealize.ShloMosaic.Lib.ValueIdx

noncomputable section

namespace Cert.Attn

open Idealize.ShloMosaic Idealize.ShloMosaic.ValueIdx

abbrev SX : Shape := ⟨2, ![8192, 512]⟩
abbrev SW : Shape := ⟨2, ![512, 64]⟩
abbrev SO : Shape := ⟨2, ![8192, 64]⟩

/-- a projection x @ w read at (row r, column d) -/
noncomputable def proj (x : SX.Idx → EReal) (w : SW.Idx → EReal) (r : Fin 8192) (d : Fin 64) : EReal :=
  ∑ k : Fin 512, x (ix2 r k) * w (ix2 k d)

/-- the scaled score of query row r against key row n -/
noncomputable def score (c : EReal) (x e : SX.Idx → EReal) (wq wk : SW.Idx → EReal) (r n : Fin 8192) : EReal :=
  (∑ d : Fin 64, proj x wq r d * proj e wk n d) * c

/-- softmax attention, the reference's arrangement, at (r, d) -/
noncomputable def attn (c : EReal) (x e : SX.Idx → EReal) (wq wk wv : SW.Idx → EReal) (r : Fin 8192) (d : Fin 64) : EReal :=
  let M : EReal := Finset.univ.fold max ⊥ (fun n : Fin 8192 => score c x e wq wk r n)
  let L : EReal := ∑ n : Fin 8192, Ideal.exp (score c x e wq wk r n - M)
  ∑ n : Fin 8192, Ideal.div (Ideal.exp (score c x e wq wk r n - M)) L * proj e wv n d

noncomputable def G (c : EReal) (x e : SX.Idx → EReal) (wq wk wv : SW.Idx → EReal) : SO.Idx → EReal :=
  fun i => attn c x e wq wk wv (i 0) (i 1)

end Cert.Attn

end
-- ==== Proof.KI.Value0.lean ====
/-
  The key/value projection region's two output arrays at the exact instance, as functions of the arrays the region is
  entered from. At grid point t the body stores, into block t of 1024 columns of the transposed keys, the transpose
  of (embeddings rows 1024 t … 1024 t + 1023) times the key weights, and into block t of 1024 rows of the values the
  same rows times the value weights; each product entry is a sum over the 512 input features. The eight blocks tile
  each array, so after the region entry (d, n) of the transposed keys is the inner product of embeddings row n with
  the key weights' column d, and entry (n, d) of the values the inner product of embeddings row n with the value
  weights' column d. In order: one product entry as a sum over the features; the two payloads at an index; the block
  index of every window at a grid point; each input block as a part of its array; then per output array what a point
  writes back, which indices a point's block holds, the tiling, and the array after the last point.
-/
import proofs.«105404_j15710990369179_2_alg».proof.Proof.KI.Region0
import proofs.«105404_j15710990369179_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## One entry of a block's product with a weight matrix -/

/-- The product's left operand is read at the output's row … -/
theorem lhs_row (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
/-- … and the summed feature, -/
theorem lhs_col (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
/-- the right operand at the summed feature … -/
theorem rhs_row (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
/-- … and the output's column. -/
theorem rhs_col (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- Entry (q, p) of a 1024-row block times a weight matrix, into a zero accumulator: the sum over the 512 features
    of the block's row q against the matrix's column p. -/
theorem matmul_at (x0 : FVec Ideal S1024x512 .f32) (x1 : FVec Ideal S512x64 .f32) (q : Fin 1024) (p : Fin 64) :
    (matmul dot_S1024x512_S512x64_S1024x64_1_0_0_1_n_n (some .fp32) x0 x1 (constant (F := Ideal) S1024x64 .f32 0x00000000#32) : FVec Ideal S1024x64 .f32) (ix2 q p)
      = ∑ k : Fin 512, x0 (ix2 q k) * x1 (ix2 k p) := by
  refine (Ideal.matmul_constant_zero_apply dot_S1024x512_S512x64_S1024x64_1_0_0_1_n_n (some .fp32) x0 x1 (ix2 q p)).trans ?_
  rw [← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 q p) ((contrEquiv1 dot_S1024x512_S512x64_S1024x64_1_0_0_1_n_n 512 rfl rfl).symm k) = ix2 q k := funext fun a => Fin.ext (by
    match a with
    | ⟨0, _⟩ => exact lhs_row _ _
    | ⟨1, _⟩ => exact (lhs_col _ _).trans hk)
  have er : dot_S1024x512_S512x64_S1024x64_1_0_0_1_n_n.rhsIdx (ix2 q p) ((contrEquiv1 dot_S1024x512_S512x64_S1024x64_1_0_0_1_n_n 512 rfl rfl).symm k) = ix2 k p := funext fun a => Fin.ext (by
    match a with
    | ⟨0, _⟩ => exact (rhs_row _ _).trans hk
    | ⟨1, _⟩ => exact rhs_col _ _)
  rw [el, er]

/-! ## The body's two payloads at an index -/

/-- The values block: entry (q, p) is the block's row q against the value weights' column p. -/
theorem values_pay_at (x0 : Vec Ideal S1024x512 .f32) (x1 : Vec Ideal S512x64 .f32) (q : Fin 1024) (p : Fin 64) :
    k0_pay1 x0 x1 (ix2 q p) = ∑ k : Fin 512, x0 (ix2 q k) * x1 (ix2 k p) := by
  unfold k0_pay1
  exact matmul_at x0 x1 q p

/-- The transposed-keys block: entry (p, q) is the block's row q against the key weights' column p. -/
theorem keysT_pay_at (x0 : Vec Ideal S1024x512 .f32) (x1 : Vec Ideal S512x64 .f32) (p : Fin 64) (q : Fin 1024) :
    k0_pay2 x0 x1 (ix2 p q) = ∑ k : Fin 512, x0 (ix2 q k) * x1 (ix2 k p) := by
  unfold k0_pay2
  refine (transpose_ix2_apply _ transposes_S1024x64_p1_0_S64x1024 p q).trans ?_
  exact matmul_at x0 x1 q p

/-! ## The one whole-block store leaves its payload -/

theorem hz : (![0, 0] : Fin 2 → Nat) = fun _ => 0 := funext fun a => by fin_cases a <;> rfl

/-! ## The printed index maps, decided over the grid -/

/-- At point t the embeddings window is at block (t, 0), the transposed-keys window at block (0, t), the values
    window at block (t, 0), and the two weight windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The input blocks as parts of their arrays -/

/-- The embeddings block at point t is rows 1024 t … 1024 t + 1023 of the embeddings. -/
theorem eblk_apply (c : Dev nD) (t : Fin cfg0.N) (q : Fin 1024) (k : Fin 512) (n : Fin 8192) (hn : n.val = t.val * 1024 + q.val) :
    (iblk0 V c 0 t : Vec Ideal S1024x512 .f32) (ix2 q k) = (V c main_arg1 : S8192x512.Idx → EReal) (ix2 n k) := by
  obtain ⟨h00, h01, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 1024 + 1 * q.val = n.val; rw [h00, hn]; omega
  | ⟨1, _⟩ => show win0_0.index t (1 : Fin 2) * 512 + 1 * k.val = k.val; rw [h01]; omega

/-- The key-weights block at every point is the whole matrix. -/
theorem wkblk_apply (c : Dev nD) (t : Fin cfg0.N) (k : Fin 512) (p : Fin 64) :
    (iblk0 V c 1 t : Vec Ideal S512x64 .f32) (ix2 k p) = (V c main_arg3 : S512x64.Idx → EReal) (ix2 k p) := by
  obtain ⟨-, -, h10, h11, -⟩ := idx_facts t
  unfold iblk0
  rw [View.read_apply]
  show V c main_arg3 _ = V c main_arg3 _
  refine congrArg (V c main_arg3) (funext fun a => Fin.ext ?_)
  match a with
  | ⟨0, _⟩ => show win0_1.index t (0 : Fin 2) * 512 + 1 * k.val = k.val; rw [h10]; omega
  | ⟨1, _⟩ => show win0_1.index t (1 : Fin 2) * 64 + 1 * p.val = p.val; rw [h11]; omega

/-- The value-weights block at every point is the whole matrix. -/
theorem wvblk_apply (c : Dev nD) (t : Fin cfg0.N) (k : Fin 512) (p : Fin 64) :
    (iblk0 V c 2 t : Vec Ideal S512x64 .f32) (ix2 k p) = (V c main_arg4 : S512x64.Idx → EReal) (ix2 k p) := by
  obtain ⟨-, -, -, -, h20, h21, -⟩ := idx_facts t
  unfold iblk0
  rw [View.read_apply]
  show V c main_arg4 _ = V c main_arg4 _
  refine congrArg (V c main_arg4) (funext fun a => Fin.ext ?_)
  match a with
  | ⟨0, _⟩ => show win0_2.index t (0 : Fin 2) * 512 + 1 * k.val = k.val; rw [h20]; omega
  | ⟨1, _⟩ => show win0_2.index t (1 : Fin 2) * 64 + 1 * p.val = p.val; rw [h21]; omega

/-! ## The transposed keys -/

/-- Entry (d, n) of the transposed keys: embeddings row n against the key weights' column d. -/
abbrev keysT (e : S8192x512.Idx → EReal) (wk : S512x64.Idx → EReal) : S64x8192.Idx → EReal :=
  fun i => Cert.Attn.proj e wk (i 1) (i 0)

/-- What point t writes back is block t of the transposed keys. -/
theorem keysT_flushed (c : Dev nD) (t : Fin cfg0.N) :
    (dat0 V c).flushed 3 t = ((cfg0.win 3).blk t).view.read (Elt Ideal) (keysT (V c main_arg1) (V c main_arg3)) := by
  show (cfg0.win 3).cut (grid0.coords t) ((dat0 V c).after 3 t) = _
  rw [after0_3]
  unfold out0_3
  rw [View.canon_unit_zero hz]
  simp only [View.ld_unit_zero (S := S1024x512) hz, View.ld_unit_zero (S := S512x64) hz]
  obtain ⟨-, -, -, -, -, -, h30, h31, -⟩ := idx_facts t
  refine funext fun (j : S64x1024.Idx) => ?_
  obtain ⟨p, q, rfl⟩ : ∃ (p : Fin 64) (q : Fin 1024), j = ix2 p q := ⟨j 0, j 1, eq_ix2 j⟩
  show k0_pay2 (iblk0 V c 0 t) (iblk0 V c 1 t) (ix2 p q)
    = Cert.Attn.proj (V c main_arg1) (V c main_arg3) ((((cfg0.win 3).blk t).view.emb (ix2 p q)) 1) ((((cfg0.win 3).blk t).view.emb (ix2 p q)) 0)
  refine (keysT_pay_at (iblk0 V c 0 t) (iblk0 V c 1 t) p q).trans ?_
  unfold Cert.Attn.proj
  refine Finset.sum_congr rfl fun k _ => ?_
  have e0 : (iblk0 V c 0 t : Vec Ideal S1024x512 .f32) (ix2 q k) = (V c main_arg1 : S8192x512.Idx → EReal) (ix2 ((((cfg0.win 3).blk t).view.emb (ix2 p q)) 1) k) :=
    eblk_apply V c t q k _ (by show win0_3.index t (1 : Fin 2) * 1024 + 1 * q.val = t.val * 1024 + q.val; rw [h31]; omega)
  have e1 : (iblk0 V c 1 t : Vec Ideal S512x64 .f32) (ix2 k p) = (V c main_arg3 : S512x64.Idx → EReal) (ix2 k ((((cfg0.win 3).blk t).view.emb (ix2 p q)) 0)) := by
    refine (wkblk_apply V c t k p).trans (congrArg (V c main_arg3) (funext fun a => Fin.ext ?_))
    match a with
    | ⟨0, _⟩ => rfl
    | ⟨1, _⟩ => show p.val = win0_3.index t (0 : Fin 2) * 64 + 1 * p.val; rw [h30]; omega
  rw [e0, e1]

/-- An index of the transposed keys is in point t's block iff each coordinate is in the block's range on its axis. -/
theorem mem_blk3 (t : Fin cfg0.N) (i : S64x8192.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v0_0).slice (win0_3.rect t)).set ↔ _
  rw [View.set_slice_whole, Rect.mem_set_unit]
  exact Iff.rfl

/-- Every index of the transposed keys is in some point's block: column n in point n / 1024's. -/
theorem keysT_cover (i : S64x8192.Idx) : ∃ t : Fin cfg0.N, (cfg0.win 3).flush t = true ∧ i ∈ ((cfg0.win 3).blk t).view.set := by
  have hN : cfg0.N = 8 := N_0
  have hi0 : (i 0).val < 64 := (i 0).isLt
  have hi1 : (i 1).val < 8192 := (i 1).isLt
  obtain ⟨t, ht⟩ : ∃ t : Fin cfg0.N, t.val = (i 1).val / 1024 := ⟨⟨(i 1).val / 1024, by rw [hN]; omega⟩, rfl⟩
  obtain ⟨-, -, -, -, -, -, h30, h31, -⟩ := idx_facts t
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; rw [h30]; omega
  | ⟨1, _⟩ => show win0_3.index t (1 : Fin 2) * 1024 ≤ (i 1).val ∧ (i 1).val < win0_3.index t (1 : Fin 2) * 1024 + 1024; rw [h31]; omega

/-- The transposed-keys array after the region: entry (d, n) is embeddings row n against the key weights' column d. -/
theorem keysT_final (c : Dev nD) :
    (dat0 V c).arrAt 3 cfg0.N = fun i => Cert.Attn.proj (V c main_arg1) (V c main_arg3) (i 1) (i 0) :=
  (dat0 V c).arrAt_eq_of_cover 3 (keysT (V c main_arg1) (V c main_arg3)) (fun t _ => keysT_flushed V c t) keysT_cover

/-! ## The values -/

/-- Entry (n, d) of the values: embeddings row n against the value weights' column d. -/
abbrev values (e : S8192x512.Idx → EReal) (wv : S512x64.Idx → EReal) : S8192x64.Idx → EReal :=
  fun i => Cert.Attn.proj e wv (i 0) (i 1)

/-- What point t writes back is block t of the values. -/
theorem values_flushed (c : Dev nD) (t : Fin cfg0.N) :
    (dat0 V c).flushed 4 t = ((cfg0.win 4).blk t).view.read (Elt Ideal) (values (V c main_arg1) (V c main_arg4)) := by
  show (cfg0.win 4).cut (grid0.coords t) ((dat0 V c).after 4 t) = _
  rw [after0_4]
  unfold out0_4
  rw [View.canon_unit_zero hz]
  simp only [View.ld_unit_zero (S := S1024x512) hz, View.ld_unit_zero (S := S512x64) hz]
  obtain ⟨-, -, -, -, -, -, -, -, h40, h41⟩ := idx_facts t
  refine funext fun (j : S1024x64.Idx) => ?_
  obtain ⟨q, p, rfl⟩ : ∃ (q : Fin 1024) (p : Fin 64), j = ix2 q p := ⟨j 0, j 1, eq_ix2 j⟩
  show k0_pay1 (iblk0 V c 0 t) (iblk0 V c 2 t) (ix2 q p)
    = Cert.Attn.proj (V c main_arg1) (V c main_arg4) ((((cfg0.win 4).blk t).view.emb (ix2 q p)) 0) ((((cfg0.win 4).blk t).view.emb (ix2 q p)) 1)
  refine (values_pay_at (iblk0 V c 0 t) (iblk0 V c 2 t) q p).trans ?_
  unfold Cert.Attn.proj
  refine Finset.sum_congr rfl fun k _ => ?_
  have e0 : (iblk0 V c 0 t : Vec Ideal S1024x512 .f32) (ix2 q k) = (V c main_arg1 : S8192x512.Idx → EReal) (ix2 ((((cfg0.win 4).blk t).view.emb (ix2 q p)) 0) k) :=
    eblk_apply V c t q k _ (by show win0_4.index t (0 : Fin 2) * 1024 + 1 * q.val = t.val * 1024 + q.val; rw [h40]; omega)
  have e1 : (iblk0 V c 2 t : Vec Ideal S512x64 .f32) (ix2 k p) = (V c main_arg4 : S512x64.Idx → EReal) (ix2 k ((((cfg0.win 4).blk t).view.emb (ix2 q p)) 1)) := by
    refine (wvblk_apply V c t k p).trans (congrArg (V c main_arg4) (funext fun a => Fin.ext ?_))
    match a with
    | ⟨0, _⟩ => rfl
    | ⟨1, _⟩ => show p.val = win0_4.index t (1 : Fin 2) * 64 + 1 * p.val; rw [h41]; omega
  rw [e0, e1]

/-- An index of the values is in point t's block iff each coordinate is in the block's range on its axis. -/
theorem mem_blk4 (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v0_1).slice (win0_4.rect t)).set ↔ _
  rw [View.set_slice_whole, Rect.mem_set_unit]
  exact Iff.rfl

/-- Every index of the values is in some point's block: row n in point n / 1024's. -/
theorem values_cover (i : S8192x64.Idx) : ∃ t : Fin cfg0.N, (cfg0.win 4).flush t = true ∧ i ∈ ((cfg0.win 4).blk t).view.set := by
  have hN : cfg0.N = 8 := N_0
  have hi0 : (i 0).val < 8192 := (i 0).isLt
  have hi1 : (i 1).val < 64 := (i 1).isLt
  obtain ⟨t, ht⟩ : ∃ t : Fin cfg0.N, t.val = (i 0).val / 1024 := ⟨⟨(i 0).val / 1024, by rw [hN]; omega⟩, rfl⟩
  obtain ⟨-, -, -, -, -, -, -, -, h40, h41⟩ := idx_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [h40]; omega
  | ⟨1, _⟩ => show win0_4.index t (1 : Fin 2) * 64 ≤ (i 1).val ∧ (i 1).val < win0_4.index t (1 : Fin 2) * 64 + 64; rw [h41]; omega

/-- The values array after the region: entry (n, d) is embeddings row n against the value weights' column d. -/
theorem values_final (c : Dev nD) :
    (dat0 V c).arrAt 4 cfg0.N = fun i => Cert.Attn.proj (V c main_arg1) (V c main_arg4) (i 0) (i 1) :=
  (dat0 V c).arrAt_eq_of_cover 4 (values (V c main_arg1) (V c main_arg4)) (fun t _ => values_flushed V c t) values_cover

end Cert.KernelIdeal.HandValue

end
-- ==== Proof.LibCoveredLoad.lean ====
/-
  A load through a whole buffer, after several stores each of which overwrote the whole buffer, reads what the LAST of
  those stores wrote, whatever the earlier ones were: a value that is written, read back, updated and written again,
  round after round. General in the shape, the element type and the view.
-/
import Idealize.ShloMosaic.Lib.Pipeline.Value

noncomputable section

namespace Idealize.ShloMosaic.View

variable {Val : EltTy → Type} {S : Shape} {e : EltTy}

/-- The newest whole-buffer store decides what a whole-buffer load reads. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KI.Pieces.lean ====
/-
  What each case of the attention body leaves in the scratch buffers and in the output block, as the body's own
  arithmetic (the skeleton's payloads) of the point's input blocks and of what the point before left: at a query tile's
  first point the projection of the query block, then one online step from the start state (maximum at the lowest float,
  denominator and weighted sum at zero); at every later point one online step from the carried state, the projection
  untouched; at the last point also the weighted sum over the denominator into the output block. Each buffer is
  stored whole, so what a later load reads, and what the buffer ends with, is the newest store's payload.
-/
import proofs.«105404_j15710990369179_2_alg».proof.Proof.KI.Region1
import proofs.«105404_j15710990369179_2_alg».proof.Proof.LibCoveredLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A query tile's first point -/

theorem caseA_q (c : Dev nD) (t : Fin cfg1.N) (h0 : t.val % 8 = 0) (h1 : ¬t.val % 8 = 7) : (caseA V c t h0 h1).2.1 = (k1_pay4 (iblk1 V c 0 t) (iblk1 V c 1 t)) := by
  unfold caseA; dsimp only
  rw [View.read_writes_eq_canon _ _ _ (scoverA_0 V c t h0 h1)]
  unfold kernelRun1_A; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseA_m (c : Dev nD) (t : Fin cfg1.N) (h0 : t.val % 8 = 0) (h1 : ¬t.val % 8 = 7) : (caseA V c t h0 h1).2.2.1 = k1_pay2 (k1_pay9 (k1_pay4 (iblk1 V c 0 t) (iblk1 V c 1 t)) (iblk1 V c 2 t) (k1_pay5 (F := F))) := by
  unfold caseA; dsimp only
  rw [View.read_writes_eq_canon _ _ _ (scoverA_1 V c t h0 h1)]
  unfold kernelRun1_A; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseA_l (c : Dev nD) (t : Fin cfg1.N) (h0 : t.val % 8 = 0) (h1 : ¬t.val % 8 = 7) : (caseA V c t h0 h1).2.2.2.1 = k1_pay12 (k1_pay4 (iblk1 V c 0 t) (iblk1 V c 1 t)) (iblk1 V c 2 t) (k1_pay5 (F := F)) (k1_pay5 (F := F)) (k1_pay6 (F := F)) := by
  unfold caseA; dsimp only
  rw [View.read_writes_eq_canon _ _ _ (scoverA_2 V c t h0 h1)]
  unfold kernelRun1_A; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseA_acc (c : Dev nD) (t : Fin cfg1.N) (h0 : t.val % 8 = 0) (h1 : ¬t.val % 8 = 7) : (caseA V c t h0 h1).2.2.2.2 = k1_pay1 (k1_pay11 (k1_pay4 (iblk1 V c 0 t) (iblk1 V c 1 t)) (iblk1 V c 2 t) (k1_pay5 (F := F))) (k1_pay13 (iblk1 V c 3 t)) (k1_pay7 (F := F)) (k1_pay14 (k1_pay4 (iblk1 V c 0 t) (iblk1 V c 1 t)) (iblk1 V c 2 t) (k1_pay5 (F := F)) (k1_pay5 (F := F))) := by
  unfold caseA; dsimp only
  rw [View.read_writes_eq_canon _ _ _ (scoverA_3 V c t h0 h1)]
  unfold kernelRun1_A; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]

/-! ## A middle point -/

theorem caseB_q (c : Dev nD) (t : Fin cfg1.N) (h0 : ¬t.val % 8 = 0) (h1 : ¬t.val % 8 = 7) (p : St F) : (caseB V c t h0 h1 p).2.1 = p.2.1 := rfl
theorem caseB_m (c : Dev nD) (t : Fin cfg1.N) (h0 : ¬t.val % 8 = 0) (h1 : ¬t.val % 8 = 7) (p : St F) : (caseB V c t h0 h1 p).2.2.1 = k1_pay2 (k1_pay9 p.2.1 (iblk1 V c 2 t) p.2.2.1) := by
  unfold caseB; dsimp only
  rw [View.read_writes_eq_canon _ _ _ (scoverB_1 V c t h0 h1 p)]
  unfold kernelRun1_B; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseB_l (c : Dev nD) (t : Fin cfg1.N) (h0 : ¬t.val % 8 = 0) (h1 : ¬t.val % 8 = 7) (p : St F) : (caseB V c t h0 h1 p).2.2.2.1 = k1_pay12 p.2.1 (iblk1 V c 2 t) p.2.2.1 p.2.2.1 p.2.2.2.1 := by
  unfold caseB; dsimp only
  rw [View.read_writes_eq_canon _ _ _ (scoverB_2 V c t h0 h1 p)]
  unfold kernelRun1_B; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseB_acc (c : Dev nD) (t : Fin cfg1.N) (h0 : ¬t.val % 8 = 0) (h1 : ¬t.val % 8 = 7) (p : St F) : (caseB V c t h0 h1 p).2.2.2.2 = k1_pay1 (k1_pay11 p.2.1 (iblk1 V c 2 t) p.2.2.1) (k1_pay13 (iblk1 V c 3 t)) p.2.2.2.2 (k1_pay14 p.2.1 (iblk1 V c 2 t) p.2.2.1 p.2.2.1) := by
  unfold caseB; dsimp only
  rw [View.read_writes_eq_canon _ _ _ (scoverB_3 V c t h0 h1 p)]
  unfold kernelRun1_B; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]

/-! ## A query tile's last point -/

theorem caseC_q (c : Dev nD) (t : Fin cfg1.N) (h0 : ¬t.val % 8 = 0) (h1 : t.val % 8 = 7) (p : St F) : (caseC V c t h0 h1 p).2.1 = p.2.1 := rfl
theorem caseC_m (c : Dev nD) (t : Fin cfg1.N) (h0 : ¬t.val % 8 = 0) (h1 : t.val % 8 = 7) (p : St F) : (caseC V c t h0 h1 p).2.2.1 = k1_pay2 (k1_pay9 p.2.1 (iblk1 V c 2 t) p.2.2.1) := by
  unfold caseC; dsimp only
  rw [View.read_writes_eq_canon _ _ _ (scoverC_1 V c t h0 h1 p)]
  unfold kernelRun1_C; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseC_l (c : Dev nD) (t : Fin cfg1.N) (h0 : ¬t.val % 8 = 0) (h1 : t.val % 8 = 7) (p : St F) : (caseC V c t h0 h1 p).2.2.2.1 = k1_pay12 p.2.1 (iblk1 V c 2 t) p.2.2.1 p.2.2.1 p.2.2.2.1 := by
  unfold caseC; dsimp only
  rw [View.read_writes_eq_canon _ _ _ (scoverC_2 V c t h0 h1 p)]
  unfold kernelRun1_C; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseC_acc (c : Dev nD) (t : Fin cfg1.N) (h0 : ¬t.val % 8 = 0) (h1 : t.val % 8 = 7) (p : St F) : (caseC V c t h0 h1 p).2.2.2.2 = k1_pay1 (k1_pay11 p.2.1 (iblk1 V c 2 t) p.2.2.1) (k1_pay13 (iblk1 V c 3 t)) p.2.2.2.2 (k1_pay14 p.2.1 (iblk1 V c 2 t) p.2.2.1 p.2.2.1) := by
  unfold caseC; dsimp only
  rw [View.read_writes_eq_canon _ _ _ (scoverC_3 V c t h0 h1 p)]
  unfold kernelRun1_C; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]
theorem caseC_out (c : Dev nD) (t : Fin cfg1.N) (h0 : ¬t.val % 8 = 0) (h1 : t.val % 8 = 7) (p : St F) : (caseC V c t h0 h1 p).1
    = k1_pay3 (k1_pay1 (k1_pay11 p.2.1 (iblk1 V c 2 t) p.2.2.1) (k1_pay13 (iblk1 V c 3 t)) p.2.2.2.2 (k1_pay14 p.2.1 (iblk1 V c 2 t) p.2.2.1 p.2.2.1)) (k1_pay12 p.2.1 (iblk1 V c 2 t) p.2.2.1 p.2.2.1 p.2.2.2.1) := by
  unfold caseC; dsimp only
  rw [View.read_writes_eq_canon _ _ _ (coverC_4 V c t h0 h1 p)]
  unfold kernelRun1_C; dsimp only
  sl_unfold_words
  have hz : (![0, 0] : Fin 2 → ℕ) = fun _ => 0 := by funext a; fin_cases a <;> rfl
  have e0 : ∀ (h : scM1_0.IsWhole) (X : Vec F S512x64 .f32), View.read (Elt F) (View.whole cc1_scratch0) (h.unread X) = X := fun h X => h.read_unread X
  have e1 : ∀ (h : scM1_1.IsWhole) (X : Vec F S512x1 .f32), View.read (Elt F) (View.whole cc1_scratch1) (h.unread X) = X := fun h X => h.read_unread X
  have e2 : ∀ (h : scM1_2.IsWhole) (X : Vec F S512x1 .f32), View.read (Elt F) (View.whole cc1_scratch2) (h.unread X) = X := fun h X => h.read_unread X
  have e3 : ∀ (h : scM1_3.IsWhole) (X : Vec F S512x64 .f32), View.read (Elt F) (View.whole cc1_scratch3) (h.unread X) = X := fun h X => h.read_unread X
  simp only [View.canon_cons_unit_zero (S := S512x64) hz, View.canon_unit_zero (S := S512x64) hz, View.canon_cons_unit_zero (S := S512x1) hz, View.canon_unit_zero (S := S512x1) hz,
    View.readCov_cons_unit_zero (S := S512x64) _ hz, View.readCov_unit_zero (S := S512x64) _ hz, View.readCov_cons_unit_zero (S := S512x1) _ hz, View.readCov_unit_zero (S := S512x1) _ hz,
    View.readAt_eq_ld, Memref.IsWhole.read_unread,
    View.ld_unit_zero (S := S512x512) hz, View.ld_unit_zero (S := S512x64) hz, View.ld_unit_zero (S := S64x1024) hz,
    View.ld_unit_zero (S := S1024x64) hz, View.ld_unit_zero (S := S512x1) hz, e0, e1, e2, e3]

end Cert.KernelIdeal.Hand

end
-- ==== Proof.KI.Payloads.lean ====
/-
  The attention body's arithmetic, read entry by entry at the extended reals.

  Each value the body computes is an array; read at one row `r` (and one lane `j` or one head
  coordinate `d`) it is a closed expression in the entries of the arrays it was computed from:
  the scaled score of a query row against a key lane is a 64-term sum times the scale; the new
  running maximum of a row is the larger of the old one and the largest score of the tile; the
  correction factor is the exponential of the old maximum minus the new one; the unnormalised
  weight of a lane is the exponential of its score minus the new maximum; the new denominator is the
  corrected old one plus the sum of the weights; the new numerator is the corrected old one plus the
  weighted sum of the value rows.
-/
import proofs.«105404_j15710990369179_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Idealize.ShloMosaic Idealize.ShloMosaic.ValueIdx Cert.KernelIdeal Cert.KernelIdeal.Gen

/-! ## Column arrays: a vector as a one-column matrix, and a one-column matrix laid along every column -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

variable (q acc : Vec Ideal S512x64 .f32) (kt : Vec Ideal S64x1024 .f32) (vb : Vec Ideal S1024x64 .f32)
  (mm ll : Vec Ideal S512x1 .f32) (x0 : Vec Ideal S512x512 .f32) (x1 : Vec Ideal S512x64 .f32)
  (r : Fin 512) (d : Fin 64) (j : Fin 1024)

/-- The scaled score of query row `r` against key lane `j` of the tile. -/
abbrev sc (q : Vec Ideal S512x64 .f32) (kt : Vec Ideal S64x1024 .f32) (r : Fin 512) (j : Fin 1024) : EReal :=
  (∑ dd : Fin 64, q (ix2 r dd) * kt (ix2 dd j)) * Ideal.ofBits .f32 0x3E000000#32

/-- The new running maximum of row `r`: the larger of the old one and the tile's largest score. -/
abbrev m' (q : Vec Ideal S512x64 .f32) (kt : Vec Ideal S64x1024 .f32) (mm : Vec Ideal S512x1 .f32) (r : Fin 512) : EReal :=
  max (mm (ix2 r 0)) (Finset.univ.fold max ⊥ (fun j : Fin 1024 => sc q kt r j))

/-! ## The values stored as they are, the final division, the projection, and the start values -/

/-- A shape cast to the same shape changes nothing. -/
theorem pay2_at : k1_pay2 (F := Ideal) mm (ix2 r 0) = mm (ix2 r 0) := by
  unfold k1_pay2
  rw [shapeCast_self]

/-- The result: the numerator divided by the row's denominator. -/
theorem pay3_at : k1_pay3 (F := Ideal) acc ll (ix2 r d) = Ideal.div (acc (ix2 r d)) (ll (ix2 r 0)) := by
  unfold k1_pay3
  rw [divf_apply]
  exact congrArg (Ideal.div (acc (ix2 r d))) (broadcastTo_a1_ab_apply ll _ r d)

/-- The pattern of `-∞` denotes the bottom of the extended reals. -/
theorem ofBits_neg_inf : Ideal.ofBits .f32 0xFF800000#32 = ⊥ := by simp [Ideal.ofBits, Ideal.ieee]

/-- The running maximum starts at `-∞`. -/
theorem pay5_at : k1_pay5 (F := Ideal) (ix2 r 0) = ⊥ := by
  unfold k1_pay5
  rw [shapeCast_self]
  exact ofBits_neg_inf

/-- The denominator starts at zero. -/
theorem pay6_at : k1_pay6 (F := Ideal) (ix2 r 0) = 0 := by
  unfold k1_pay6
  rw [shapeCast_self]
  exact Ideal.ofBits_zero_f32

/-- The numerator starts at zero. -/
theorem pay7_at : k1_pay7 (F := Ideal) (ix2 r d) = 0 := by
  unfold k1_pay7
  rw [shapeCast_self]
  exact Ideal.ofBits_zero_f32

/-! ### The query projection: a 512-term sum -/

/-- The projection's left operand row is the output's row. -/
theorem proj_lhs0 (i : S512x64.Idx) (c : dot_S512x512_S512x64_S512x64_1_0_0_1_n_n.contr.Idx) :
    (dot_S512x512_S512x64_S512x64_1_0_0_1_n_n.lhsIdx i c 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl

/-- The projection's right operand column is the output's column. -/
theorem proj_rhs1 (i : S512x64.Idx) (c : dot_S512x512_S512x64_S512x64_1_0_0_1_n_n.contr.Idx) :
    (dot_S512x512_S512x64_S512x64_1_0_0_1_n_n.rhsIdx i c 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- The left operand is read at the output's row and the contraction coordinate. -/
theorem proj_lhsIdx (r : Fin 512) (c : Fin 64) (k : Fin 512) :
    dot_S512x512_S512x64_S512x64_1_0_0_1_n_n.lhsIdx (ix2 r c) ((contrEquiv1 dot_S512x512_S512x64_S512x64_1_0_0_1_n_n 512 rfl rfl).symm k) = ix2 r k :=
  funext fun a => Fin.ext (by
    match a with
    | ⟨0, _⟩ => exact proj_lhs0 _ _
    | ⟨1, _⟩ =>
      exact (dot_S512x512_S512x64_S512x64_1_0_0_1_n_n.lhsIdx_val_of_single rfl _ _).trans (contrEquiv1_symm_val dot_S512x512_S512x64_S512x64_1_0_0_1_n_n 512 rfl rfl k))

/-- The right operand is read at the contraction coordinate and the output's column. -/
theorem proj_rhsIdx (r : Fin 512) (c : Fin 64) (k : Fin 512) :
    dot_S512x512_S512x64_S512x64_1_0_0_1_n_n.rhsIdx (ix2 r c) ((contrEquiv1 dot_S512x512_S512x64_S512x64_1_0_0_1_n_n 512 rfl rfl).symm k) = ix2 k c :=
  funext fun a => Fin.ext (by
    match a with
    | ⟨0, _⟩ =>
      exact (dot_S512x512_S512x64_S512x64_1_0_0_1_n_n.rhsIdx_val_of_single rfl _ _).trans (contrEquiv1_symm_val dot_S512x512_S512x64_S512x64_1_0_0_1_n_n 512 rfl rfl k)
    | ⟨1, _⟩ => exact proj_rhs1 _ _)

/-- The projected query: row `r` of the activations against column `d` of the weights. -/
theorem pay4_at : k1_pay4 (F := Ideal) x0 x1 (ix2 r d) = ∑ k : Fin 512, x0 (ix2 r k) * x1 (ix2 k d) := by
  unfold k1_pay4
  rw [shapeCast_self]
  simp only [matmul]
  rw [Ideal.matmul_constant_zero_apply,
    ← Equiv.sum_comp (contrEquiv1 dot_S512x512_S512x64_S512x64_1_0_0_1_n_n 512 rfl rfl).symm]
  refine Finset.sum_congr rfl fun k _ => ?_
  rw [proj_lhsIdx, proj_rhsIdx]

/-! ## The scaled scores -/

/-- The score product's left operand row is the output's row. -/
theorem qk_lhs0 (i : S512x1024.Idx) (c : dot_S512x64_S64x1024_S512x1024_1_0_0_1_n_n.contr.Idx) :
    (dot_S512x64_S64x1024_S512x1024_1_0_0_1_n_n.lhsIdx i c 0).val = (i 0).val := by
  unfold DotDims.lhsIdx
  rw [dif_neg (show ¬(0 : Fin S512x64.rank) ∈ dot_S512x64_S64x1024_S512x1024_1_0_0_1_n_n.lhsBatch by decide),
    dif_pos (show (0 : Fin S512x64.rank) ∈ dot_S512x64_S64x1024_S512x1024_1_0_0_1_n_n.lhsNonContracting by decide)]
  rfl

/-- The score product's right operand column is the output's lane. -/
theorem qk_rhs1 (i : S512x1024.Idx) (c : dot_S512x64_S64x1024_S512x1024_1_0_0_1_n_n.contr.Idx) :
    (dot_S512x64_S64x1024_S512x1024_1_0_0_1_n_n.rhsIdx i c 1).val = (i 1).val := by
  unfold DotDims.rhsIdx
  rw [dif_neg (show ¬(1 : Fin S64x1024.rank) ∈ dot_S512x64_S64x1024_S512x1024_1_0_0_1_n_n.rhsBatch by decide),
    dif_pos (show (1 : Fin S64x1024.rank) ∈ dot_S512x64_S64x1024_S512x1024_1_0_0_1_n_n.rhsNonContracting by decide)]
  rfl

/-- The left operand is read at the output's row and the contraction coordinate. -/
theorem qk_lhsIdx (r : Fin 512) (c : Fin 1024) (k : Fin 64) :
    dot_S512x64_S64x1024_S512x1024_1_0_0_1_n_n.lhsIdx (ix2 r c) ((contrEquiv1 dot_S512x64_S64x1024_S512x1024_1_0_0_1_n_n 64 rfl rfl).symm k) = ix2 r k :=
  funext fun a => Fin.ext (by
    match a with
    | ⟨0, _⟩ => exact qk_lhs0 _ _
    | ⟨1, _⟩ =>
      exact (dot_S512x64_S64x1024_S512x1024_1_0_0_1_n_n.lhsIdx_val_of_single rfl _ _).trans (contrEquiv1_symm_val dot_S512x64_S64x1024_S512x1024_1_0_0_1_n_n 64 rfl rfl k))

/-- The right operand is read at the contraction coordinate and the output's column. -/
theorem qk_rhsIdx (r : Fin 512) (c : Fin 1024) (k : Fin 64) :
    dot_S512x64_S64x1024_S512x1024_1_0_0_1_n_n.rhsIdx (ix2 r c) ((contrEquiv1 dot_S512x64_S64x1024_S512x1024_1_0_0_1_n_n 64 rfl rfl).symm k) = ix2 k c :=
  funext fun a => Fin.ext (by
    match a with
    | ⟨0, _⟩ =>
      exact (dot_S512x64_S64x1024_S512x1024_1_0_0_1_n_n.rhsIdx_val_of_single rfl _ _).trans (contrEquiv1_symm_val dot_S512x64_S64x1024_S512x1024_1_0_0_1_n_n 64 rfl rfl k)
    | ⟨1, _⟩ => exact qk_rhs1 _ _)

/-- The scaled score: the query row against the key lane over the 64 head coordinates, times the scale
    (rounding to a narrower format is the identity on the extended reals). -/
theorem pay8_at : k1_pay8 (F := Ideal) q kt (ix2 r j) = sc q kt r j := by
  unfold k1_pay8
  rw [shapeCast_self, mulf_apply]
  simp only [matmul]
  rw [Ideal.matmul_constant_zero_apply,
    ← Equiv.sum_comp (contrEquiv1 dot_S512x64_S64x1024_S512x1024_1_0_0_1_n_n 64 rfl rfl).symm]
  refine congrArg (· * Ideal.ofBits .f32 0x3E000000#32) (Finset.sum_congr rfl fun k _ => ?_)
  rw [qk_lhsIdx, qk_rhsIdx]
  rfl

/-! ## Reductions along a row, and the new running maximum -/

/-- The index a reduction over the lane axis reads for row `r` and lane `k` is `(r, k)`. -/
theorem lift_row (h : S512x1024.Reduces [1] S512) (r : Fin 512) (k : Fin 1024) :
    h.lift (ix1 r) k = ix2 r k :=
  funext fun a => Fin.ext (by match a with | ⟨0, _⟩ => rfl | ⟨1, _⟩ => rfl)

/-- The maximum over the lane axis, from `-∞`, read at row `r`: the fold of `max` from the bottom over the row. -/
theorem rowMax_apply (src : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = Finset.univ.fold max ⊥ (fun k : Fin 1024 => src (ix2 r k)) := by
  refine (Ideal.multiReduction_maximumf_single src _ h hφ hacc (ix1 r)).trans ?_
  rw [show (FloatOps.ofBits .f32 0xFF800000#32 : Ideal .f32) = ⊥ from ofBits_neg_inf]
  show Finset.univ.fold max ⊥ (fun k : Fin 1024 => src (h.lift (ix1 r) k)) = _
  exact congrArg (Finset.univ.fold max ⊥) (funext fun k => congrArg src (lift_row h r k))

/-- The sum over the lane axis, from zero, read at row `r`: the sum over the row. -/
theorem rowSum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 1024, src (ix2 r k) := by
  refine (Ideal.multiReduction_add_single src _ h hφ hacc (ix1 r)).trans ?_
  show ∑ k : Fin 1024, src (h.lift (ix1 r) k) = _
  exact Finset.sum_congr rfl fun k _ => congrArg src (lift_row h r k)

/-- The new running maximum: the larger of the old one and the largest scaled score of the tile's row. -/
theorem pay9_at : k1_pay9 (F := Ideal) q kt mm (ix2 r 0) = m' q kt mm r := by
  unfold k1_pay9
  rw [maximumf_apply]
  refine congrArg (max (mm (ix2 r 0))) ?_
  refine (shapeCast_a_a1_apply _ _ r 0).trans ?_
  refine (rowMax_apply _ _ _ _ r).trans ?_
  exact congrArg (Finset.univ.fold max ⊥) (funext fun k => pay8_at q kt r k)

/-! ## The correction factor, the weights, the new denominator -/

/-- The correction factor: the exponential of the old maximum minus the new one. -/
theorem pay10_at : k1_pay10 (F := Ideal) q kt mm mm (ix2 r 0) = Ideal.exp (mm (ix2 r 0) - m' q kt mm r) := by
  unfold k1_pay10
  show Ideal.exp (mm (ix2 r 0) - k1_pay9 (F := Ideal) q kt mm (ix2 r 0)) = _
  rw [pay9_at]

/-- The unnormalised weight of lane `j`: the exponential of its score minus the row's new maximum. -/
theorem pay11_at : k1_pay11 (F := Ideal) q kt mm (ix2 r j) = Ideal.exp (sc q kt r j - m' q kt mm r) := by
  unfold k1_pay11
  show Ideal.exp (k1_pay8 (F := Ideal) q kt (ix2 r j)
    - broadcastTo S512x1024 (k1_pay9 (F := Ideal) q kt mm) broadcasts_S512x1_S512x1024 (ix2 r j)) = _
  rw [pay8_at, broadcastTo_a1_ab_apply, pay9_at]

/-- The new denominator: the corrected old one plus the sum of the tile's weights. -/
theorem pay12_at : k1_pay12 (F := Ideal) q kt mm mm ll (ix2 r 0)
    = Ideal.exp (mm (ix2 r 0) - m' q kt mm r) * ll (ix2 r 0)
      + ∑ j : Fin 1024, Ideal.exp (sc q kt r j - m' q kt mm r) := by
  unfold k1_pay12
  rw [shapeCast_self, addf_apply, mulf_apply, pay10_at]
  refine congrArg (Ideal.exp (mm (ix2 r 0) - m' q kt mm r) * ll (ix2 r 0) + ·) ?_
  refine (shapeCast_a_a1_apply _ _ r 0).trans ?_
  refine (rowSum_apply _ _ _ _ r).trans ?_
  exact Finset.sum_congr rfl fun k _ => pay11_at q kt mm r k

/-! ## The new numerator -/

/-- The weighted sum's left operand row is the output's row. -/
theorem pv_lhs0 (i : S512x64.Idx) (c : dot_S512x1024_S1024x64_S512x64_1_0_0_1_n_n.contr.Idx) :
    (dot_S512x1024_S1024x64_S512x64_1_0_0_1_n_n.lhsIdx i c 0).val = (i 0).val := by
  unfold DotDims.lhsIdx
  rw [dif_neg (show ¬(0 : Fin S512x1024.rank) ∈ dot_S512x1024_S1024x64_S512x64_1_0_0_1_n_n.lhsBatch by decide),
    dif_pos (show (0 : Fin S512x1024.rank) ∈ dot_S512x1024_S1024x64_S512x64_1_0_0_1_n_n.lhsNonContracting by decide)]
  rfl

/-- The weighted sum's right operand column is the output's head coordinate. -/
theorem pv_rhs1 (i : S512x64.Idx) (c : dot_S512x1024_S1024x64_S512x64_1_0_0_1_n_n.contr.Idx) :
    (dot_S512x1024_S1024x64_S512x64_1_0_0_1_n_n.rhsIdx i c 1).val = (i 1).val := by
  unfold DotDims.rhsIdx
  rw [dif_neg (show ¬(1 : Fin S1024x64.rank) ∈ dot_S512x1024_S1024x64_S512x64_1_0_0_1_n_n.rhsBatch by decide),
    dif_pos (show (1 : Fin S1024x64.rank) ∈ dot_S512x1024_S1024x64_S512x64_1_0_0_1_n_n.rhsNonContracting by decide)]
  rfl

/-- The left operand is read at the output's row and the contraction coordinate. -/
theorem pv_lhsIdx (r : Fin 512) (c : Fin 64) (k : Fin 1024) :
    dot_S512x1024_S1024x64_S512x64_1_0_0_1_n_n.lhsIdx (ix2 r c) ((contrEquiv1 dot_S512x1024_S1024x64_S512x64_1_0_0_1_n_n 1024 rfl rfl).symm k) = ix2 r k :=
  funext fun a => Fin.ext (by
    match a with
    | ⟨0, _⟩ => exact pv_lhs0 _ _
    | ⟨1, _⟩ =>
      exact (dot_S512x1024_S1024x64_S512x64_1_0_0_1_n_n.lhsIdx_val_of_single rfl _ _).trans (contrEquiv1_symm_val dot_S512x1024_S1024x64_S512x64_1_0_0_1_n_n 1024 rfl rfl k))

/-- The right operand is read at the contraction coordinate and the output's column. -/
theorem pv_rhsIdx (r : Fin 512) (c : Fin 64) (k : Fin 1024) :
    dot_S512x1024_S1024x64_S512x64_1_0_0_1_n_n.rhsIdx (ix2 r c) ((contrEquiv1 dot_S512x1024_S1024x64_S512x64_1_0_0_1_n_n 1024 rfl rfl).symm k) = ix2 k c :=
  funext fun a => Fin.ext (by
    match a with
    | ⟨0, _⟩ =>
      exact (dot_S512x1024_S1024x64_S512x64_1_0_0_1_n_n.rhsIdx_val_of_single rfl _ _).trans (contrEquiv1_symm_val dot_S512x1024_S1024x64_S512x64_1_0_0_1_n_n 1024 rfl rfl k)
    | ⟨1, _⟩ => exact pv_rhs1 _ _)

/-- The new numerator: the corrected old one plus the tile's weights against the value rows. -/
theorem pay1_at : k1_pay1 (F := Ideal) (k1_pay11 (F := Ideal) q kt mm) (k1_pay13 (F := Ideal) vb) acc
      (k1_pay14 (F := Ideal) q kt mm mm) (ix2 r d)
    = Ideal.exp (mm (ix2 r 0) - m' q kt mm r) * acc (ix2 r d)
      + ∑ j : Fin 1024, Ideal.exp (sc q kt r j - m' q kt mm r) * vb (ix2 j d) := by
  unfold k1_pay1
  rw [shapeCast_self, addf_apply, mulf_apply]
  have h14 : k1_pay14 (F := Ideal) q kt mm mm (ix2 r d) = Ideal.exp (mm (ix2 r 0) - m' q kt mm r) := by
    unfold k1_pay14
    rw [broadcastTo_a1_ab_apply, pay10_at]
  rw [h14]
  refine congrArg (Ideal.exp (mm (ix2 r 0) - m' q kt mm r) * acc (ix2 r d) + ·) ?_
  simp only [matmul]
  rw [Ideal.matmul_constant_zero_apply,
    ← Equiv.sum_comp (contrEquiv1 dot_S512x1024_S1024x64_S512x64_1_0_0_1_n_n 1024 rfl rfl).symm]
  refine Finset.sum_congr rfl fun k _ => ?_
  rw [pv_lhsIdx, pv_rhsIdx]
  have h13 : k1_pay13 (F := Ideal) vb (ix2 k d) = vb (ix2 k d) := by
    unfold k1_pay13
    rw [shapeCast_self]
    rfl
  rw [h13]
  exact congrArg (· * vb (ix2 k d)) (pay11_at q kt mm r k)

end Cert.KernelIdeal.HandValue

end
-- ==== Proof.KI.Value1Blocks.lean ====
/-
  The attention region's blocks as parts of their arrays, and its output array after the last grid point. The grid
  is 16 query tiles by 8 key/value tiles; point t is query tile t / 8 at key/value tile t % 8. At point t the body
  reads rows 512 (t / 8) … 512 (t / 8) + 511 of the queries' input, the whole query weights, columns
  1024 (t % 8) … 1024 (t % 8) + 1023 of the transposed keys and rows 1024 (t % 8) … 1024 (t % 8) + 1023 of the values.
  The output block of query tile t / 8 is written back only at the tile's last point (t % 8 = 7); the sixteen blocks
  written back tile the output, so the output after the region is any whole-array function whose block of rows
  512 (t / 8) … each last point's buffer holds. In order: the block index of every window at a grid point; each
  input block read at an index; what a last point writes back; which indices a point's output block holds; the
  tiling; the array after the last point.
-/
import proofs.«105404_j15710990369179_2_alg».proof.Proof.KI.Region1
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The printed index maps, decided over the grid -/

/-- At point t the queries' input window is at block (t / 8, 0), the query weights at (0, 0), the transposed keys
    at (0, t % 8), the values at (t % 8, 0) and the output at (t / 8, 0). -/
theorem idx_facts1 : ∀ t : Fin cfg1.N, win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val % 8
    ∧ win1_3.index t (0 : Fin 2) = t.val % 8 ∧ win1_3.index t (1 : Fin 2) = 0
    ∧ win1_4.index t (0 : Fin 2) = t.val / 8 ∧ win1_4.index t (1 : Fin 2) = 0 :=
  (by decide +kernel : ∀ t : Fin grid1.N, _)

variable (V : (c : Dev nD) → (b : Ref sig .tc) → Buf (Elt Ideal) ((c : Thread nD τ).loc b))

/-! ## The input blocks as parts of their arrays -/

/-- The queries' input block at point t is rows 512 (t / 8) … 512 (t / 8) + 511 of the input. -/
theorem xblk1_apply (c : Dev nD) (t : Fin cfg1.N) (rr : Fin 512) (k : Fin 512) (n : Fin 8192) (hn : n.val = (t.val / 8) * 512 + rr.val) :
    (iblk1 V c 0 t : Vec Ideal S512x512 .f32) (ix2 rr k) = (V c main_arg0 : S8192x512.Idx → EReal) (ix2 n k) := by
  obtain ⟨h00, h01, -⟩ := idx_facts1 t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * rr.val = n.val; rw [h00, hn]; omega
  | ⟨1, _⟩ => show win1_0.index t (1 : Fin 2) * 512 + 1 * k.val = k.val; rw [h01]; omega

/-- The query-weights block at every point is the whole matrix. -/
theorem wqblk1_apply (c : Dev nD) (t : Fin cfg1.N) (k : Fin 512) (d : Fin 64) :
    (iblk1 V c 1 t : Vec Ideal S512x64 .f32) (ix2 k d) = (V c main_arg2 : S512x64.Idx → EReal) (ix2 k d) := by
  obtain ⟨-, -, h10, h11, -⟩ := idx_facts1 t
  unfold iblk1
  rw [View.read_apply]
  show V c main_arg2 _ = V c main_arg2 _
  refine congrArg (V c main_arg2) (funext fun a => Fin.ext ?_)
  match a with
  | ⟨0, _⟩ => show win1_1.index t (0 : Fin 2) * 512 + 1 * k.val = k.val; rw [h10]; omega
  | ⟨1, _⟩ => show win1_1.index t (1 : Fin 2) * 64 + 1 * d.val = d.val; rw [h11]; omega

/-- The transposed-keys block at point t is columns 1024 (t % 8) … 1024 (t % 8) + 1023 of the transposed keys. -/
theorem ktblk1_apply (c : Dev nD) (t : Fin cfg1.N) (dd : Fin 64) (j : Fin 1024) (n : Fin 8192) (hn : n.val = (t.val % 8) * 1024 + j.val) :
    (iblk1 V c 2 t : Vec Ideal S64x1024 .f32) (ix2 dd j) = (V c main_v0_0 : S64x8192.Idx → EReal) (ix2 dd n) := by
  obtain ⟨-, -, -, -, h20, h21, -⟩ := idx_facts1 t
  unfold iblk1
  rw [View.read_apply]
  show V c main_v0_0 _ = V c main_v0_0 _
  refine congrArg (V c main_v0_0) (funext fun a => Fin.ext ?_)
  match a with
  | ⟨0, _⟩ => show win1_2.index t (0 : Fin 2) * 64 + 1 * dd.val = dd.val; rw [h20]; omega
  | ⟨1, _⟩ => show win1_2.index t (1 : Fin 2) * 1024 + 1 * j.val = n.val; rw [h21, hn]; omega

/-- The values block at point t is rows 1024 (t % 8) … 1024 (t % 8) + 1023 of the values. -/
theorem vblk1_apply (c : Dev nD) (t : Fin cfg1.N) (j : Fin 1024) (d : Fin 64) (n : Fin 8192) (hn : n.val = (t.val % 8) * 1024 + j.val) :
    (iblk1 V c 3 t : Vec Ideal S1024x64 .f32) (ix2 j d) = (V c main_v0_1 : S8192x64.Idx → EReal) (ix2 n d) := by
  obtain ⟨-, -, -, -, -, -, h30, h31, -⟩ := idx_facts1 t
  unfold iblk1
  rw [View.read_apply]
  show V c main_v0_1 _ = V c main_v0_1 _
  refine congrArg (V c main_v0_1) (funext fun a => Fin.ext ?_)
  match a with
  | ⟨0, _⟩ => show win1_3.index t (0 : Fin 2) * 1024 + 1 * j.val = n.val; rw [h30, hn]; omega
  | ⟨1, _⟩ => show win1_3.index t (1 : Fin 2) * 64 + 1 * d.val = d.val; rw [h31]; omega

/-! ## The output array -/

/-- What a query tile's last point writes back is the tile's block of any whole-array function that the point's
    buffer restricts. -/
theorem out_flushed (c : Dev nD) (Gf : S8192x64.Idx → EReal)
    (hlast : ∀ (t : Fin cfg1.N), t.val % 8 = 7 → ∀ (rr : Fin 512) (d : Fin 64) (n : Fin 8192), n.val = (t.val / 8) * 512 + rr.val →
      ((outsAt1 V c t.val t.isLt).1 : Vec Ideal S512x64 .f32) (ix2 rr d) = Gf (ix2 n d))
    (t : Fin cfg1.N) (hf : (cfg1.win 4).flush t = true) :
    (dat1 V c).flushed 4 t = ((cfg1.win 4).blk t).view.read (Elt Ideal) Gf := by
  have h7 : t.val % 8 = 7 := (flush1_4 t).mp hf
  show (cfg1.win 4).cut (grid1.coords t) ((dat1 V c).after 4 t) = _
  rw [after1_4]
  obtain ⟨-, -, -, -, -, -, -, -, h40, h41⟩ := idx_facts1 t
  refine funext fun (j : S512x64.Idx) => ?_
  obtain ⟨rr, d, rfl⟩ : ∃ (rr : Fin 512) (d : Fin 64), j = ix2 rr d := ⟨j 0, j 1, eq_ix2 j⟩
  show ((outsAt1 V c t.val t.isLt).1 : Vec Ideal S512x64 .f32) (ix2 rr d) = Gf (((cfg1.win 4).blk t).view.emb (ix2 rr d))
  refine (hlast t h7 rr d ((((cfg1.win 4).blk t).view.emb (ix2 rr d)) 0) ?_).trans (congrArg Gf (funext fun a => Fin.ext ?_))
  · show win1_4.index t (0 : Fin 2) * 512 + 1 * rr.val = t.val / 8 * 512 + rr.val; rw [h40]; omega
  · match a with
    | ⟨0, _⟩ => rfl
    | ⟨1, _⟩ => show d.val = win1_4.index t (1 : Fin 2) * 64 + 1 * d.val; rw [h41]; omega

/-- An index of the output is in point t's block iff each coordinate is in the block's range on its axis. -/
theorem mem_blk1_4 (t : Fin cfg1.N) (i : S8192x64.Idx) :
    i ∈ ((cfg1.win 4).blk t).view.set ↔ ∀ a : Fin 2, win1_4.index t a * S512x64.size a ≤ (i a).val ∧ (i a).val < win1_4.index t a * S512x64.size a + S512x64.size a := by
  show i ∈ ((View.whole main_v1).slice (win1_4.rect t)).set ↔ _
  rw [View.set_slice_whole, Rect.mem_set_unit]
  exact Iff.rfl

/-- Every index of the output is in the block some last point writes back: row n in point 8 (n / 512) + 7's. -/
theorem out_cover (i : S8192x64.Idx) : ∃ t : Fin cfg1.N, (cfg1.win 4).flush t = true ∧ i ∈ ((cfg1.win 4).blk t).view.set := by
  have hN : cfg1.N = 128 := N_1
  have hi0 : (i 0).val < 8192 := (i 0).isLt
  have hi1 : (i 1).val < 64 := (i 1).isLt
  obtain ⟨t, ht⟩ : ∃ t : Fin cfg1.N, t.val = (i 0).val / 512 * 8 + 7 := ⟨⟨(i 0).val / 512 * 8 + 7, by rw [hN]; omega⟩, rfl⟩
  obtain ⟨-, -, -, -, -, -, -, -, h40, h41⟩ := idx_facts1 t
  refine ⟨t, (flush1_4 t).mpr (by omega), ?_⟩
  rw [mem_blk1_4]
  intro a
  match a with
  | ⟨0, _⟩ => show win1_4.index t (0 : Fin 2) * 512 ≤ (i 0).val ∧ (i 0).val < win1_4.index t (0 : Fin 2) * 512 + 512; rw [h40]; omega
  | ⟨1, _⟩ => show win1_4.index t (1 : Fin 2) * 64 ≤ (i 1).val ∧ (i 1).val < win1_4.index t (1 : Fin 2) * 64 + 64; rw [h41]; omega

/-- The output array after the region is any whole-array function each query tile's last point's buffer restricts. -/
theorem out_final (c : Dev nD) (Gf : S8192x64.Idx → EReal)
    (hlast : ∀ (t : Fin cfg1.N), t.val % 8 = 7 → ∀ (rr : Fin 512) (d : Fin 64) (n : Fin 8192), n.val = (t.val / 8) * 512 + rr.val →
      ((outsAt1 V c t.val t.isLt).1 : Vec Ideal S512x64 .f32) (ix2 rr d) = Gf (ix2 n d)) :
    (dat1 V c).arrAt 4 cfg1.N = Gf :=
  (dat1 V c).arrAt_eq_of_cover 4 Gf (fun t hf => out_flushed V c Gf hlast t hf) out_cover

end Cert.KernelIdeal.HandValue

end
-- ==== Proof.LibOnlineSoftmax.lean ====
/-
  The online softmax recurrence ends at the softmax-weighted sum.

  A row of scores is cut into `B` blocks of `C` scores each, and each score comes with a value. The
  online softmax reads the blocks one after the other and carries three numbers: the running
  maximum `m` of the scores seen so far, the running denominator `l = ∑ exp (s - m)` and the
  running weighted sum `acc = ∑ exp (s - m) * v`, both taken over the scores seen so far. A new block
  raises the maximum to `m'`, rescales the two sums by `exp (m - m')` and adds the block's own
  terms. It starts from `m = -∞`, `l = 0`, `acc = 0`.

  This file proves that after all `B` blocks the quotient `acc / l` is the softmax-weighted sum
  taken over all `B * C` scores at once, `∑ (exp (s - M) / ∑ exp (s - M)) * v` with `M` the maximum
  of all the scores, when every score and every value is a real number. Numbers are extended
  reals and every operation is exact; the extended reals only show in the start value `-∞` of
  the running maximum, where `exp (-∞ - m') = 0`.

  The proof carries the invariant that after `n ≥ 1` blocks the state is `(M, ∑ exp (s - M), ∑ exp (s - M) * v)`
  for some real `M`, the sums over the first `n` blocks; the rescaling step is
  `exp (M - M') * exp (s - M) = exp (s - M')`. The quotient of the two sums does not depend on
  the real `M` they are shifted by, which is how the recurrence's last maximum meets the maximum
  the one-pass formula subtracts.
-/
import Mathlib.Data.Finset.Fold
import Mathlib.Algebra.BigOperators.Fin
import Mathlib.Data.EReal.Operations
import Idealize.ShloMosaic.PureOps.Ideal
import Idealize.ShloMosaic.PureOps.Ideal.Laws

noncomputable section

namespace OnlineSoftmax

open Idealize.ShloMosaic

variable {B C : ℕ}

/-- one block: scores s, values v (one output column), state (m, l, acc) -/
noncomputable def step (s v : Fin C → EReal) (st : EReal × EReal × EReal) : EReal × EReal × EReal :=
  let m' : EReal := max st.1 (Finset.univ.fold max ⊥ s)
  let a : EReal := Ideal.exp (st.1 - m')
  (m', a * st.2.1 + ∑ j, Ideal.exp (s j - m'), a * st.2.2 + ∑ j, Ideal.exp (s j - m') * v j)

/-- the state after the first n blocks, from (⊥, 0, 0) -/
noncomputable def run (s v : Fin B → Fin C → EReal) : (n : ℕ) → n ≤ B → EReal × EReal × EReal
  | 0, _ => (⊥, 0, 0)
  | n + 1, h => step (s ⟨n, h⟩) (v ⟨n, h⟩) (run s v n (Nat.le_of_succ_le h))

/-- the softmax-weighted sum over ALL scores at once, the reference's arrangement: each weight
    divided by the denominator BEFORE the product with the value -/
noncomputable def whole (s v : Fin B → Fin C → EReal) : EReal :=
  let M : EReal := Finset.univ.fold max ⊥ (fun p : Fin B × Fin C => s p.1 p.2)
  let L : EReal := ∑ p : Fin B × Fin C, Ideal.exp (s p.1 p.2 - M)
  ∑ p : Fin B × Fin C, Ideal.div (Ideal.exp (s p.1 p.2 - M)) L * v p.1 p.2

theorem run_zero (s v : Fin B → Fin C → EReal) (h : 0 ≤ B) : run s v 0 h = (⊥, 0, 0) := rfl

theorem run_succ (s v : Fin B → Fin C → EReal) (n : ℕ) (h : n + 1 ≤ B) :
    run s v (n + 1) h = step (s ⟨n, h⟩) (v ⟨n, h⟩) (run s v n (Nat.le_of_succ_le h)) := rfl

/-! ### Bridging lemmas -/

/-- The inclusion of the reals in the extended reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum over a grid is the maximum over the rows of the maxima of the rows. -/
theorem fold_max_prod (f : Fin B → Fin C → EReal) :
    Finset.univ.fold max ⊥ (fun p : Fin B × Fin C => f p.1 p.2)
      = Finset.univ.fold max ⊥ (fun b => Finset.univ.fold max ⊥ (f b)) := by
  apply le_antisymm
  · rw [Finset.fold_max_le]
    refine ⟨bot_le, fun p _ => ?_⟩
    rw [Finset.le_fold_max]
    refine Or.inr ⟨p.1, Finset.mem_univ _, ?_⟩
    rw [Finset.le_fold_max]
    exact Or.inr ⟨p.2, Finset.mem_univ _, le_rfl⟩
  · rw [Finset.fold_max_le]
    refine ⟨bot_le, fun b _ => ?_⟩
    rw [Finset.fold_max_le]
    refine ⟨bot_le, fun j _ => ?_⟩
    rw [Finset.le_fold_max]
    exact Or.inr ⟨(b, j), Finset.mem_univ _, le_rfl⟩

/-- The maximum of finitely many reals, over a nonempty index type, is a real: it bounds every
    one of them and is one of them. -/
theorem fold_max_coe_exists {ι : Type*} [Fintype ι] [Nonempty ι] (f : ι → ℝ) :
    ∃ M : ℝ, Finset.univ.fold max ⊥ (fun i => (f i : EReal)) = (M : EReal) ∧ (∀ i, f i ≤ M) ∧
      ∃ i0, M = f i0 := by
  obtain ⟨i0, -, h0⟩ := Finset.exists_max_image Finset.univ f Finset.univ_nonempty
  refine ⟨f i0, ?_, fun i => h0 i (Finset.mem_univ i), i0, rfl⟩
  apply le_antisymm
  · rw [Finset.fold_max_le]
    exact ⟨bot_le, fun i _ => EReal.coe_le_coe_iff.mpr (h0 i (Finset.mem_univ i))⟩
  · rw [Finset.le_fold_max]
    exact Or.inr ⟨i0, Finset.mem_univ _, le_rfl⟩

/-- The maximum of finitely many reals, over a nonempty index type, is not `-∞`. -/
theorem fold_max_coe_ne_bot {ι : Type*} [Fintype ι] [Nonempty ι] (f : ι → ℝ) :
    Finset.univ.fold max ⊥ (fun i => (f i : EReal)) ≠ ⊥ := by
  obtain ⟨M, hM, -⟩ := fold_max_coe_exists f
  rw [hM]
  exact EReal.coe_ne_bot M

/-! ### One block -/

/-- Raising the subtracted maximum from `M` to `M'` rescales a weight by `exp (M - M')`. -/
theorem exp_shift (M M' x : ℝ) : Real.exp (M - M') * Real.exp (x - M) = Real.exp (x - M') := by
  rw [← Real.exp_add]; congr 1; ring

/-- The first block: from the start state, the state is the block's maximum and the block's two
    sums shifted by it. -/
theorem step_start (hC : 0 < C) (s v : Fin C → ℝ) :
    ∃ M : ℝ, step (fun j => (s j : EReal)) (fun j => (v j : EReal)) (⊥, 0, 0)
      = ((M : EReal), ((∑ j, Real.exp (s j - M) : ℝ) : EReal),
          ((∑ j, Real.exp (s j - M) * v j : ℝ) : EReal)) := by
  haveI : Nonempty (Fin C) := Fin.pos_iff_nonempty.mp hC
  obtain ⟨M, hM, -⟩ := fold_max_coe_exists s
  refine ⟨M, ?_⟩
  simp only [step]
  rw [hM, max_bot_left, EReal.bot_sub, Ideal.exp_bot, zero_mul, zero_add, zero_add]
  simp_rw [← EReal.coe_sub, Ideal.exp_coe, ← EReal.coe_mul, ← coe_sum]

/-- A later block: from a state of three reals, the state is again three reals, the old sums
    rescaled by `exp (M - M')` plus the block's sums shifted by the new maximum `M'`. -/
theorem step_coe (hC : 0 < C) (s v : Fin C → ℝ) (M l a : ℝ) :
    ∃ M' : ℝ, step (fun j => (s j : EReal)) (fun j => (v j : EReal)) ((M : EReal), (l : EReal), (a : EReal))
      = ((M' : EReal),
          ((Real.exp (M - M') * l + ∑ j, Real.exp (s j - M') : ℝ) : EReal),
          ((Real.exp (M - M') * a + ∑ j, Real.exp (s j - M') * v j : ℝ) : EReal)) := by
  haveI : Nonempty (Fin C) := Fin.pos_iff_nonempty.mp hC
  obtain ⟨Mb, hMb, -⟩ := fold_max_coe_exists s
  refine ⟨max M Mb, ?_⟩
  simp only [step]
  rw [hMb, ← EReal.coe_strictMono.monotone.map_max]
  simp_rw [← EReal.coe_sub, Ideal.exp_coe, ← EReal.coe_mul, ← coe_sum, ← EReal.coe_add]

/-! ### The invariant -/

/-- After `n + 1` blocks the state is a real `M` and the two sums over those blocks, shifted by `M`. -/
theorem run_eq (hC : 0 < C) (s v : Fin B → Fin C → ℝ) :
    ∀ (n : ℕ) (h : n + 1 ≤ B), ∃ M : ℝ,
      run (fun b j => ((s b j : ℝ) : EReal)) (fun b j => ((v b j : ℝ) : EReal)) (n + 1) h
        = ((M : EReal),
            ((∑ b : Fin (n + 1), ∑ j, Real.exp (s (Fin.castLE h b) j - M) : ℝ) : EReal),
            ((∑ b : Fin (n + 1), ∑ j, Real.exp (s (Fin.castLE h b) j - M) * v (Fin.castLE h b) j : ℝ) :
              EReal)) := by
  intro n
  induction n with
  | zero =>
    intro h
    obtain ⟨M, hM⟩ := step_start hC (s ⟨0, h⟩) (v ⟨0, h⟩)
    refine ⟨M, ?_⟩
    have hl : Fin.castLE h (Fin.last 0) = ⟨0, h⟩ := rfl
    rw [run_succ, run_zero]
    simp only [Fin.sum_univ_castSucc, Fin.sum_univ_zero, zero_add, hl]
    exact hM
  | succ n ih =>
    intro h
    obtain ⟨M, hM⟩ := ih (Nat.le_of_succ_le h)
    obtain ⟨M', hM'⟩ := step_coe hC (s ⟨n + 1, h⟩) (v ⟨n + 1, h⟩) M
      (∑ b : Fin (n + 1), ∑ j, Real.exp (s (Fin.castLE (Nat.le_of_succ_le h) b) j - M))
      (∑ b : Fin (n + 1), ∑ j, Real.exp (s (Fin.castLE (Nat.le_of_succ_le h) b) j - M)
        * v (Fin.castLE (Nat.le_of_succ_le h) b) j)
    refine ⟨M', ?_⟩
    rw [run_succ, hM]
    refine hM'.trans ?_
    have hcs : ∀ b : Fin (n + 1), Fin.castLE h b.castSucc = Fin.castLE (Nat.le_of_succ_le h) b :=
      fun _ => rfl
    have hl : Fin.castLE h (Fin.last (n + 1)) = ⟨n + 1, h⟩ := rfl
    have e1 : Real.exp (M - M') *
          (∑ b : Fin (n + 1), ∑ j, Real.exp (s (Fin.castLE (Nat.le_of_succ_le h) b) j - M))
          + ∑ j, Real.exp (s ⟨n + 1, h⟩ j - M')
        = ∑ b : Fin (n + 1 + 1), ∑ j, Real.exp (s (Fin.castLE h b) j - M') := by
      rw [Fin.sum_univ_castSucc (n := n + 1), Finset.mul_sum]
      simp only [hcs, hl]
      refine congrArg₂ (· + ·) ?_ rfl
      refine Finset.sum_congr rfl fun b _ => ?_
      rw [Finset.mul_sum]
      refine Finset.sum_congr rfl fun j _ => ?_
      exact exp_shift M M' _
    have e2 : Real.exp (M - M') *
          (∑ b : Fin (n + 1), ∑ j, Real.exp (s (Fin.castLE (Nat.le_of_succ_le h) b) j - M)
            * v (Fin.castLE (Nat.le_of_succ_le h) b) j)
          + ∑ j, Real.exp (s ⟨n + 1, h⟩ j - M') * v ⟨n + 1, h⟩ j
        = ∑ b : Fin (n + 1 + 1), ∑ j, Real.exp (s (Fin.castLE h b) j - M') * v (Fin.castLE h b) j := by
      rw [Fin.sum_univ_castSucc (n := n + 1), Finset.mul_sum]
      simp only [hcs, hl]
      refine congrArg₂ (· + ·) ?_ rfl
      refine Finset.sum_congr rfl fun b _ => ?_
      rw [Finset.mul_sum]
      refine Finset.sum_congr rfl fun j _ => ?_
      rw [← mul_assoc, exp_shift M M' _]
    rw [e1, e2]

/-! ### The quotient does not depend on the shift -/

/-- The quotient of the weighted sum by the denominator, both shifted by `M`, is the sum of the
    normalised weights shifted by `M'` times the values: a common factor `exp (M' - M)` cancels. -/
theorem quotient_shift (s v : Fin B → Fin C → ℝ) (M M' : ℝ) :
    (∑ b, ∑ j, Real.exp (s b j - M) * v b j) * (1 / ∑ b, ∑ j, Real.exp (s b j - M))
      = ∑ p : Fin B × Fin C,
          Real.exp (s p.1 p.2 - M') * (1 / ∑ q : Fin B × Fin C, Real.exp (s q.1 q.2 - M')) * v p.1 p.2 := by
  have hne : Real.exp (M' - M) ≠ 0 := (Real.exp_pos _).ne'
  have hA : ∑ b, ∑ j, Real.exp (s b j - M) * v b j
      = Real.exp (M' - M) * ∑ p : Fin B × Fin C, Real.exp (s p.1 p.2 - M') * v p.1 p.2 := by
    rw [Fintype.sum_prod_type, Finset.mul_sum]
    refine Finset.sum_congr rfl fun b _ => ?_
    rw [Finset.mul_sum]
    refine Finset.sum_congr rfl fun j _ => ?_
    rw [← mul_assoc, exp_shift M' M]
  have hL : ∑ b, ∑ j, Real.exp (s b j - M)
      = Real.exp (M' - M) * ∑ p : Fin B × Fin C, Real.exp (s p.1 p.2 - M') := by
    rw [Fintype.sum_prod_type, Finset.mul_sum]
    refine Finset.sum_congr rfl fun b _ => ?_
    rw [Finset.mul_sum]
    refine Finset.sum_congr rfl fun j _ => ?_
    rw [exp_shift M' M]
  have hR : ∑ p : Fin B × Fin C,
        Real.exp (s p.1 p.2 - M') * (1 / ∑ q : Fin B × Fin C, Real.exp (s q.1 q.2 - M')) * v p.1 p.2
      = (∑ p : Fin B × Fin C, Real.exp (s p.1 p.2 - M') * v p.1 p.2)
          * (1 / ∑ q : Fin B × Fin C, Real.exp (s q.1 q.2 - M')) := by
    rw [Finset.sum_mul]
    refine Finset.sum_congr rfl fun p _ => ?_
    ring
  rw [hA, hL, hR, one_div, one_div, mul_inv, mul_mul_mul_comm, mul_inv_cancel₀ hne, one_mul]

/-! ### The one-pass formula, in the reals -/

/-- The one-pass softmax-weighted sum of real scores and values is a real: the sum of the
    normalised weights, shifted by the maximum `M'` of all scores, times the values. -/
theorem whole_eq (hB : 0 < B) (hC : 0 < C) (s v : Fin B → Fin C → ℝ) :
    ∃ M' : ℝ, whole (fun b j => ((s b j : ℝ) : EReal)) (fun b j => ((v b j : ℝ) : EReal))
      = ((∑ p : Fin B × Fin C,
            Real.exp (s p.1 p.2 - M') * (1 / ∑ q : Fin B × Fin C, Real.exp (s q.1 q.2 - M')) * v p.1 p.2 : ℝ) :
          EReal) := by
  haveI : Nonempty (Fin B) := Fin.pos_iff_nonempty.mp hB
  haveI : Nonempty (Fin C) := Fin.pos_iff_nonempty.mp hC
  obtain ⟨M', hM', -⟩ := fold_max_coe_exists (fun p : Fin B × Fin C => s p.1 p.2)
  refine ⟨M', ?_⟩
  have hL : (∑ q : Fin B × Fin C, Real.exp (s q.1 q.2 - M')) ≠ 0 :=
    (Finset.sum_pos (fun q _ => Real.exp_pos _) Finset.univ_nonempty).ne'
  simp only [whole]
  rw [hM']
  simp_rw [← EReal.coe_sub, Ideal.exp_coe, ← coe_sum, Ideal.div_coe hL, ← EReal.coe_mul, ← coe_sum]

/-! ### The theorem -/

/-- The online softmax recurrence over all `B` blocks, its weighted sum divided by its denominator,
    is the one-pass softmax-weighted sum over all scores. -/
theorem online_eq_whole (hB : 0 < B) (hC : 0 < C) (s v : Fin B → Fin C → ℝ) :
    Ideal.div (run (fun b j => ((s b j : ℝ) : EReal)) (fun b j => ((v b j : ℝ) : EReal)) B le_rfl).2.2
              (run (fun b j => ((s b j : ℝ) : EReal)) (fun b j => ((v b j : ℝ) : EReal)) B le_rfl).2.1
      = whole (fun b j => ((s b j : ℝ) : EReal)) (fun b j => ((v b j : ℝ) : EReal)) := by
  obtain ⟨M', hW⟩ := whole_eq hB hC s v
  rw [hW]
  haveI : Nonempty (Fin C) := Fin.pos_iff_nonempty.mp hC
  obtain ⟨n, rfl⟩ : ∃ n, B = n + 1 := ⟨B - 1, by omega⟩
  obtain ⟨M, hM⟩ := run_eq hC s v n le_rfl
  rw [hM]
  simp only [Fin.castLE_refl]
  have hL : (∑ b : Fin (n + 1), ∑ j, Real.exp (s b j - M)) ≠ 0 :=
    (Finset.sum_pos (fun b _ => Finset.sum_pos (fun j _ => Real.exp_pos _) Finset.univ_nonempty)
      Finset.univ_nonempty).ne'
  rw [Ideal.div_coe hL, ← EReal.coe_mul, quotient_shift s v M M']

/-- The same for extended-real scores and values, when each of them is finite (neither `-∞` nor
    `+∞`): a finite extended real is a real. -/
theorem online_eq_whole_of_finite (hB : 0 < B) (hC : 0 < C) (S V : Fin B → Fin C → EReal)
    (hS : ∀ b j, S b j ≠ ⊥ ∧ S b j ≠ ⊤) (hV : ∀ b j, V b j ≠ ⊥ ∧ V b j ≠ ⊤) :
    Ideal.div (run S V B le_rfl).2.2 (run S V B le_rfl).2.1 = whole S V := by
  have eS : S = fun b j => (((S b j).toReal : ℝ) : EReal) := by
    funext b j
    exact (EReal.coe_toReal (hS b j).2 (hS b j).1).symm
  have eV : V = fun b j => (((V b j).toReal : ℝ) : EReal) := by
    funext b j
    exact (EReal.coe_toReal (hV b j).2 (hV b j).1).symm
  rw [eS, eV]
  exact online_eq_whole hB hC _ _

end OnlineSoftmax

end
-- ==== Proof.Scale.lean ====
/- The softmax scale of the attention computation, read at the extended reals. The kernel spells
   the scale as the constant `0.125`; the reference computes it as `1 / sqrt 64`. Both denote the
   real number `1/8`. -/
import Idealize.ShloMosaic.PureOps.Ideal
import Idealize.ShloMosaic.PureOps.Ideal.Laws

noncomputable section

namespace Cert.Attn.Scale

open Idealize.ShloMosaic

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The square root of `64` is `8`. -/
theorem sqrt_64 : Real.sqrt 64 = 8 := by
  rw [show (64 : ℝ) = 8 ^ 2 by norm_num, Real.sqrt_sq (by norm_num)]

/-- The kernel's scale: the pattern of `0.125` denotes `1/8`. -/
theorem scale_kernel : Ideal.ofBits .f32 0x3E000000#32 = (((1:ℝ)/8 : ℝ) : EReal) := by
  simp [Ideal.ofBits, Ideal.ieee, -EReal.coe_mul]; norm_num

/-- The reference's scale: `1 / sqrt 64` is `1/8`. -/
theorem scale_reference :
    Ideal.div (Ideal.ofBits .f32 0x3F800000#32) (Ideal.sqrt (Ideal.ofBits .f32 0x42800000#32))
      = (((1:ℝ)/8 : ℝ) : EReal) := by
  rw [ofBits_one, ofBits_64, Ideal.sqrt_coe, if_neg (by norm_num), sqrt_64,
    Ideal.div_coe (by norm_num : (8 : ℝ) ≠ 0), ← EReal.coe_mul, one_mul]

end Cert.Attn.Scale

end
-- ==== Proof.Bridge.lean ====
/-
  From the blockwise arrangement of softmax attention to the reference's arrangement.

  A row of 8192 scores is read as 8 tiles of 1024 scores: lane j of tile b is key/value row b * 1024 + j. The map
  (b, j) ↦ b * 1024 + j is a bijection from the grid of 8 × 1024 places onto the 8192 rows, so the maximum of the
  scores over the grid is the maximum over the rows, and a sum over the grid is the sum over the rows. This turns the
  one-pass softmax-weighted sum over the grid into the specification's attention value, term by term.

  When every input entry is a real number, every projection is a real number (a finite sum of products of reals),
  and so is every scaled score and every value entry: none of them is -∞ or +∞.

  Last, the attention value depends on the scale only through its value: the constant 0.125 and 1 / sqrt 64 are both
  the real number 1/8.
-/
import Mathlib.Data.Finset.Fold
import Mathlib.Algebra.BigOperators.Fin
import Mathlib.Data.EReal.Operations
import Idealize.ShloMosaic.PureOps.Ideal
import Idealize.ShloMosaic.PureOps.Ideal.Laws
import Idealize.ShloMosaic.Lib.ValueIdx
import proofs.«105404_j15710990369179_2_alg».proof.Proof.Spec
import proofs.«105404_j15710990369179_2_alg».proof.Proof.LibOnlineSoftmax
import proofs.«105404_j15710990369179_2_alg».proof.Proof.Scale

noncomputable section

namespace Cert.Attn

open Idealize.ShloMosaic Idealize.ShloMosaic.ValueIdx

abbrev SKT : Shape := ⟨2, ![64, 8192]⟩

/-- key/value row number of lane j of tile b -/
def blk (b : Fin 8) (j : Fin 1024) : Fin 8192 := ⟨b.val * 1024 + j.val, by omega⟩

/-- the scores of query row `row`, tile by tile, from the projected queries and the TRANSPOSED keys array kt -/
noncomputable def sfun (c : EReal) (x : SX.Idx → EReal) (wq : SW.Idx → EReal) (kt : SKT.Idx → EReal) (row : Fin 8192) :
    Fin 8 → Fin 1024 → EReal :=
  fun b j => (∑ dd : Fin 64, proj x wq row dd * kt (ix2 dd (blk b j))) * c

/-- column d of the values array vv, tile by tile -/
noncomputable def vfun (vv : SO.Idx → EReal) (d : Fin 64) : Fin 8 → Fin 1024 → EReal := fun b j => vv (ix2 (blk b j) d)

/-! ### The grid of tiles and lanes is the row range -/

/-- (tile, lane) ↦ row is a bijection from the 8 × 1024 grid onto the 8192 rows; its inverse is division with
    remainder by 1024. -/
def blkEquiv : Fin 8 × Fin 1024 ≃ Fin 8192 where
  toFun p := blk p.1 p.2
  invFun n := (⟨n.val / 1024, by omega⟩, ⟨n.val % 1024, by omega⟩)
  left_inv p := by
    obtain ⟨⟨b, hb⟩, ⟨j, hj⟩⟩ := p
    simp only [blk, Prod.mk.injEq, Fin.mk.injEq]
    omega
  right_inv n := by
    obtain ⟨n, hn⟩ := n
    simp only [blk, Fin.mk.injEq]
    omega

/-- The maximum of a family over one index type is the maximum of the re-indexed family over an equivalent one. -/
theorem fold_max_equiv {α β : Type*} [Fintype α] [Fintype β] (e : α ≃ β) (f : β → EReal) :
    Finset.univ.fold max ⊥ (fun a => f (e a)) = Finset.univ.fold max ⊥ f := by
  apply le_antisymm
  · rw [Finset.fold_max_le]
    refine ⟨bot_le, fun a _ => ?_⟩
    rw [Finset.le_fold_max]
    exact Or.inr ⟨e a, Finset.mem_univ _, le_rfl⟩
  · rw [Finset.fold_max_le]
    refine ⟨bot_le, fun b _ => ?_⟩
    rw [Finset.le_fold_max]
    refine Or.inr ⟨e.symm b, Finset.mem_univ _, ?_⟩
    rw [e.apply_symm_apply]

/-- The one-pass softmax-weighted sum over the grid, of scores and values read along a bijection from the grid onto
    another index type, is the same formula over that index type. -/
theorem whole_reindex {ι : Type*} [Fintype ι] (e : Fin 8 × Fin 1024 ≃ ι) (f g : ι → EReal) :
    OnlineSoftmax.whole (fun b j => f (e (b, j))) (fun b j => g (e (b, j)))
      = ∑ n, Ideal.div (Ideal.exp (f n - Finset.univ.fold max ⊥ f))
            (∑ n, Ideal.exp (f n - Finset.univ.fold max ⊥ f)) * g n := by
  simp only [OnlineSoftmax.whole, Prod.mk.eta]
  rw [fold_max_equiv e f,
    Equiv.sum_comp e (fun n => Ideal.exp (f n - Finset.univ.fold max ⊥ f))]
  exact Equiv.sum_comp e (fun n => Ideal.div (Ideal.exp (f n - Finset.univ.fold max ⊥ f))
            (∑ n, Ideal.exp (f n - Finset.univ.fold max ⊥ f)) * g n)

/-- The one-pass softmax-weighted sum over the 8 × 1024 grid of a query row's scores (from the transposed keys
    array) and of a column of the values array is the specification's attention value at that row and column. -/
theorem whole_eq_attn (c : EReal) (x e : SX.Idx → EReal) (wq wk wv : SW.Idx → EReal) (kt : SKT.Idx → EReal)
    (vv : SO.Idx → EReal)
    (hkt : ∀ (dd : Fin 64) (n : Fin 8192), kt (ix2 dd n) = proj e wk n dd)
    (hvv : ∀ (n : Fin 8192) (d : Fin 64), vv (ix2 n d) = proj e wv n d) (row : Fin 8192) (d : Fin 64) :
    OnlineSoftmax.whole (sfun c x wq kt row) (vfun vv d) = attn c x e wq wk wv row d := by
  have hS : sfun c x wq kt row = fun b j => score c x e wq wk row (blkEquiv (b, j)) := by
    funext b j
    simp only [sfun, score, hkt]
    rfl
  have hV : vfun vv d = fun b j => proj e wv (blkEquiv (b, j)) d := by
    funext b j
    simp only [vfun, hvv]
    rfl
  rw [hS, hV, whole_reindex blkEquiv (fun n => score c x e wq wk row n) (fun n => proj e wv n d)]
  rfl

/-! ### Finiteness -/

/-- A projection of real inputs is a real: the sum over the 512 features of the products. -/
theorem proj_coe (xr : SX.Idx → ℝ) (wr : SW.Idx → ℝ) (r : Fin 8192) (d : Fin 64) :
    proj (fun i => ((xr i : ℝ) : EReal)) (fun i => ((wr i : ℝ) : EReal)) r d
      = ((∑ k : Fin 512, xr (ix2 r k) * wr (ix2 k d) : ℝ) : EReal) := by
  simp only [proj, OnlineSoftmax.coe_sum, EReal.coe_mul]

/-- With real inputs and a real scale every scaled score is a real, so neither -∞ nor +∞. -/
theorem sfun_finite (cr : ℝ) (xr er : SX.Idx → ℝ) (qr kr : SW.Idx → ℝ) (kt : SKT.Idx → EReal)
    (hkt : ∀ dd n, kt (ix2 dd n) = proj (fun i => ((er i : ℝ) : EReal)) (fun i => ((kr i : ℝ) : EReal)) n dd)
    (row : Fin 8192) :
    ∀ b j, sfun ((cr : ℝ) : EReal) (fun i => ((xr i : ℝ) : EReal)) (fun i => ((qr i : ℝ) : EReal)) kt row b j ≠ ⊥
      ∧ sfun ((cr : ℝ) : EReal) (fun i => ((xr i : ℝ) : EReal)) (fun i => ((qr i : ℝ) : EReal)) kt row b j ≠ ⊤ := by
  intro b j
  have h : sfun ((cr : ℝ) : EReal) (fun i => ((xr i : ℝ) : EReal)) (fun i => ((qr i : ℝ) : EReal)) kt row b j
      = (((∑ dd : Fin 64, (∑ k : Fin 512, xr (ix2 row k) * qr (ix2 k dd))
            * (∑ k : Fin 512, er (ix2 (blk b j) k) * kr (ix2 k dd))) * cr : ℝ) : EReal) := by
    simp only [sfun, hkt, proj_coe]
    simp only [← EReal.coe_mul, ← OnlineSoftmax.coe_sum]
  rw [h]
  exact ⟨EReal.coe_ne_bot _, EReal.coe_ne_top _⟩

/-- With real inputs every entry of the values array is a real, so neither -∞ nor +∞. -/
theorem vfun_finite (er : SX.Idx → ℝ) (vr : SW.Idx → ℝ) (vv : SO.Idx → EReal)
    (hvv : ∀ n d, vv (ix2 n d) = proj (fun i => ((er i : ℝ) : EReal)) (fun i => ((vr i : ℝ) : EReal)) n d)
    (d : Fin 64) : ∀ b j, vfun vv d b j ≠ ⊥ ∧ vfun vv d b j ≠ ⊤ := by
  intro b j
  have h : vfun vv d b j = ((∑ k : Fin 512, er (ix2 (blk b j) k) * vr (ix2 k d) : ℝ) : EReal) := by
    simp only [vfun, hvv, proj_coe]
  rw [h]
  exact ⟨EReal.coe_ne_bot _, EReal.coe_ne_top _⟩

/-! ### The scale -/

/-- The attention array depends on the scale only through its value. -/
theorem G_congr_scale (c c' : EReal) (h : c = c') (x e : SX.Idx → EReal) (wq wk wv : SW.Idx → EReal) :
    G c x e wq wk wv = G c' x e wq wk wv := by
  subst h
  rfl

/-- The constant 0.125 and the quotient 1 / sqrt 64 give the same attention array: both are 1/8. -/
theorem G_scales (x e : SX.Idx → EReal) (wq wk wv : SW.Idx → EReal) :
    G (Ideal.ofBits .f32 0x3E000000#32) x e wq wk wv
      = G (Ideal.div (Ideal.ofBits .f32 0x3F800000#32) (Ideal.sqrt (Ideal.ofBits .f32 0x42800000#32))) x e wq wk wv :=
  G_congr_scale _ _ (Scale.scale_kernel.trans Scale.scale_reference.symm) x e wq wk wv

end Cert.Attn

end
-- ==== Proof.KI.Value1.lean ====
/-
  The attention region's value at the exact instance. After the grid point of query tile qi and key/value tile kv the
  four scratch buffers hold, row by row of the query tile: the row's projected query, and the online softmax's state
  (running maximum, running denominator, running weighted sum per output column) after the row's first kv + 1 tiles of
  scores. This is an induction on the point: a tile's first point projects the query block and takes one online step
  from the start state; every later point takes one online step from what the point before left, with the scores of
  its own key tile and the values of its own value tile. At a tile's last point the output block is the weighted sum
  over the denominator, which is the softmax-weighted sum over all keys at once.
-/
import proofs.«105404_j15710990369179_2_alg».proof.Proof.KI.Pieces
import proofs.«105404_j15710990369179_2_alg».proof.Proof.KI.Payloads
import proofs.«105404_j15710990369179_2_alg».proof.Proof.KI.Value1Blocks
import proofs.«105404_j15710990369179_2_alg».proof.Proof.Bridge
import proofs.«105404_j15710990369179_2_alg».proof.Proof.LibOnlineSoftmax

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.Attn OnlineSoftmax

variable (V : (c : Dev nD) → (b : Ref sig .tc) → Buf (Elt Ideal) ((c : Thread nD τ).loc b)) (c : Dev nD)

/-- The kernel's scale, the float 0.125. -/
abbrev cK : EReal := Ideal.ofBits .f32 0x3E000000#32

/-- One online step of the body, read at row r and output column d. -/
theorem step_at (q acc : Vec Ideal S512x64 .f32) (kt : Vec Ideal S64x1024 .f32) (vb : Vec Ideal S1024x64 .f32) (mm ll : Vec Ideal S512x1 .f32)
    (r : Fin 512) (d : Fin 64) :
    (k1_pay2 (F := Ideal) (k1_pay9 (F := Ideal) q kt mm) (ix2 r 0), k1_pay12 (F := Ideal) q kt mm mm ll (ix2 r 0),
      k1_pay1 (F := Ideal) (k1_pay11 (F := Ideal) q kt mm) (k1_pay13 (F := Ideal) vb) acc (k1_pay14 (F := Ideal) q kt mm mm) (ix2 r d))
      = OnlineSoftmax.step (fun j => sc q kt r j) (fun j => vb (ix2 j d)) (mm (ix2 r 0), ll (ix2 r 0), acc (ix2 r d)) := by
  rw [pay2_at, pay9_at, pay12_at, pay1_at]; rfl

/-- The online state of query row `row`, output column d, after the first n tiles. -/
def stt (row : Fin 8192) (d : Fin 64) (n : ℕ) (h : n ≤ 8) : EReal × EReal × EReal :=
  OnlineSoftmax.run (sfun cK (V c main_arg0) (V c main_arg2) (V c main_v0_0) row) (vfun (V c main_v0_1) d) n h

theorem stt_congr (row : Fin 8192) (d : Fin 64) {a b : ℕ} (e : a = b) (ha : a ≤ 8) (hb : b ≤ 8) : stt V c row d a ha = stt V c row d b hb := by
  subst e; rfl
theorem stt_zero (row : Fin 8192) (d : Fin 64) (h : 0 ≤ 8) : stt V c row d 0 h = (⊥, 0, 0) := rfl
theorem stt_succ (row : Fin 8192) (d : Fin 64) (n : ℕ) (h : n + 1 ≤ 8) :
    stt V c row d (n + 1) h = OnlineSoftmax.step (sfun cK (V c main_arg0) (V c main_arg2) (V c main_v0_0) row ⟨n, h⟩) (vfun (V c main_v0_1) d ⟨n, h⟩)
      (stt V c row d n (Nat.le_of_succ_le h)) := rfl

/-- What the scratch part of a state says at position n of the grid. -/
def InvSt (n : ℕ) (s : St Ideal) : Prop :=
  (∀ (rr : Fin 512) (dd : Fin 64) (row : Fin 8192), row.val = (n / 8) * 512 + rr.val →
      (s.2.1 : Vec Ideal S512x64 .f32) (ix2 rr dd) = proj (V c main_arg0) (V c main_arg2) row dd)
  ∧ (∀ (rr : Fin 512) (d : Fin 64) (row : Fin 8192), row.val = (n / 8) * 512 + rr.val →
      ((s.2.2.1 : Vec Ideal S512x1 .f32) (ix2 rr 0), (s.2.2.2.1 : Vec Ideal S512x1 .f32) (ix2 rr 0), (s.2.2.2.2 : Vec Ideal S512x64 .f32) (ix2 rr d))
        = stt V c row d (n % 8 + 1) (by omega))

/-- The scores the body computes at a point are the row's scores against the point's key tile. -/
theorem sc_eq (t : Fin cfg1.N) (q : Vec Ideal S512x64 .f32) (rr : Fin 512) (row : Fin 8192)
    (hq : ∀ dd : Fin 64, q (ix2 rr dd) = proj (V c main_arg0) (V c main_arg2) row dd) (hk : t.val % 8 + 1 ≤ 8) :
    (fun j : Fin 1024 => sc q (iblk1 V c 2 t) rr j) = sfun cK (V c main_arg0) (V c main_arg2) (V c main_v0_0) row ⟨t.val % 8, hk⟩ := by
  funext j
  show (∑ dd : Fin 64, q (ix2 rr dd) * (iblk1 V c 2 t : Vec Ideal S64x1024 .f32) (ix2 dd j)) * cK
    = (∑ dd : Fin 64, proj (V c main_arg0) (V c main_arg2) row dd * (V c main_v0_0 : S64x8192.Idx → EReal) (ix2 dd (blk ⟨t.val % 8, hk⟩ j))) * cK
  refine congrArg (· * cK) (Finset.sum_congr rfl fun dd _ => ?_)
  rw [hq dd, ktblk1_apply V c t dd j (blk ⟨t.val % 8, hk⟩ j) rfl]
theorem vb_eq (t : Fin cfg1.N) (d : Fin 64) (hk : t.val % 8 + 1 ≤ 8) :
    (fun j : Fin 1024 => (iblk1 V c 3 t : Vec Ideal S1024x64 .f32) (ix2 j d)) = vfun (V c main_v0_1) d ⟨t.val % 8, hk⟩ := by
  funext j
  exact vblk1_apply V c t j d (blk ⟨t.val % 8, hk⟩ j) rfl

/-- One online step from a state whose projection and online state are the row's. -/
theorem step_link (t : Fin cfg1.N) (q acc : Vec Ideal S512x64 .f32) (mm ll : Vec Ideal S512x1 .f32) (rr : Fin 512) (d : Fin 64) (row : Fin 8192)
    (hq : ∀ dd : Fin 64, q (ix2 rr dd) = proj (V c main_arg0) (V c main_arg2) row dd)
    (hs : (mm (ix2 rr 0), ll (ix2 rr 0), acc (ix2 rr d)) = stt V c row d (t.val % 8) (by omega)) :
    (k1_pay2 (F := Ideal) (k1_pay9 (F := Ideal) q (iblk1 V c 2 t) mm) (ix2 rr 0), k1_pay12 (F := Ideal) q (iblk1 V c 2 t) mm mm ll (ix2 rr 0),
      k1_pay1 (F := Ideal) (k1_pay11 (F := Ideal) q (iblk1 V c 2 t) mm) (k1_pay13 (F := Ideal) (iblk1 V c 3 t)) acc (k1_pay14 (F := Ideal) q (iblk1 V c 2 t) mm mm) (ix2 rr d))
      = stt V c row d (t.val % 8 + 1) (by omega) := by
  rw [step_at, sc_eq V c t q rr row hq (by omega), vb_eq V c t d (by omega), hs, stt_succ]

/-- A query tile's first point. -/
theorem invA (t : Fin cfg1.N) (h0 : t.val % 8 = 0) (h1 : ¬t.val % 8 = 7) : InvSt V c t.val (caseA V c t h0 h1) := by
  have hq : ∀ (rr : Fin 512) (dd : Fin 64) (row : Fin 8192), row.val = (t.val / 8) * 512 + rr.val →
      ((caseA V c t h0 h1).2.1 : Vec Ideal S512x64 .f32) (ix2 rr dd) = proj (V c main_arg0) (V c main_arg2) row dd := by
    intro rr dd row hrow
    rw [caseA_q, pay4_at]
    unfold proj
    refine Finset.sum_congr rfl fun k _ => ?_
    rw [xblk1_apply V c t rr k row hrow, wqblk1_apply V c t k dd]
  refine ⟨hq, fun rr d row hrow => ?_⟩
  rw [caseA_m, caseA_l, caseA_acc, ← caseA_q V c t h0 h1]
  refine step_link V c t _ _ _ _ rr d row (fun dd => hq rr dd row hrow) ?_
  rw [pay5_at, pay6_at, pay7_at, stt_congr V c row d h0 _ (Nat.zero_le 8), stt_zero]

/-- A later point, from the state the point before left. -/
theorem invStep (t : Fin cfg1.N) (h0 : ¬t.val % 8 = 0) (p s : St Ideal) (hp : InvSt V c (t.val - 1) p)
    (e0 : s.2.1 = p.2.1)
    (e1 : s.2.2.1 = k1_pay2 (F := Ideal) (k1_pay9 (F := Ideal) p.2.1 (iblk1 V c 2 t) p.2.2.1))
    (e2 : s.2.2.2.1 = k1_pay12 (F := Ideal) p.2.1 (iblk1 V c 2 t) p.2.2.1 p.2.2.1 p.2.2.2.1)
    (e3 : s.2.2.2.2 = k1_pay1 (F := Ideal) (k1_pay11 (F := Ideal) p.2.1 (iblk1 V c 2 t) p.2.2.1) (k1_pay13 (F := Ideal) (iblk1 V c 3 t)) p.2.2.2.2 (k1_pay14 (F := Ideal) p.2.1 (iblk1 V c 2 t) p.2.2.1 p.2.2.1)) :
    InvSt V c t.val s := by
  have hdiv : (t.val - 1) / 8 = t.val / 8 := by omega
  have hmod : (t.val - 1) % 8 + 1 = t.val % 8 := by omega
  have hq : ∀ (rr : Fin 512) (dd : Fin 64) (row : Fin 8192), row.val = (t.val / 8) * 512 + rr.val →
      (p.2.1 : Vec Ideal S512x64 .f32) (ix2 rr dd) = proj (V c main_arg0) (V c main_arg2) row dd :=
    fun rr dd row hrow => hp.1 rr dd row (by rw [hdiv]; exact hrow)
  refine ⟨fun rr dd row hrow => by rw [e0]; exact hq rr dd row hrow, fun rr d row hrow => ?_⟩
  rw [e1, e2, e3]
  refine step_link V c t _ _ _ _ rr d row (fun dd => hq rr dd row hrow) ?_
  rw [hp.2 rr d row (by rw [hdiv]; exact hrow)]
  exact stt_congr V c row d hmod _ _

/-- The invariant at every point. -/
theorem inv_all : ∀ (n : ℕ) (hn : n < cfg1.N), InvSt V c n (outsAt1 V c n hn) := by
  intro n
  induction n with
  | zero =>
    intro hn
    have := outsAt1_A V c ⟨0, hn⟩ (Nat.zero_mod _) (by simp)
    rw [this]; exact invA V c ⟨0, hn⟩ _ _
  | succ k ih =>
    intro hn
    by_cases h0 : (k + 1) % 8 = 0
    · have h1 : ¬(k + 1) % 8 = 7 := by omega
      rw [outsAt1_A V c ⟨k + 1, hn⟩ h0 h1]; exact invA V c ⟨k + 1, hn⟩ h0 h1
    · have hprev := ih (Nat.lt_of_succ_lt hn)
      by_cases h1 : (k + 1) % 8 = 7
      · rw [outsAt1_C V c ⟨k + 1, hn⟩ h0 h1]
        exact invStep V c ⟨k + 1, hn⟩ h0 _ _ hprev (caseC_q V c _ h0 h1 _) (caseC_m V c _ h0 h1 _) (caseC_l V c _ h0 h1 _) (caseC_acc V c _ h0 h1 _)
      · rw [outsAt1_B V c ⟨k + 1, hn⟩ h0 h1]
        exact invStep V c ⟨k + 1, hn⟩ h0 _ _ hprev (caseB_q V c _ h0 h1 _) (caseB_m V c _ h0 h1 _) (caseB_l V c _ h0 h1 _) (caseB_acc V c _ h0 h1 _)

/-- At a query tile's last point the output block is the weighted sum over the denominator after all eight tiles. -/
theorem out_last (t : Fin cfg1.N) (h1 : t.val % 8 = 7) (rr : Fin 512) (d : Fin 64) (row : Fin 8192) (hrow : row.val = (t.val / 8) * 512 + rr.val) :
    ((outsAt1 V c t.val t.isLt).1 : Vec Ideal S512x64 .f32) (ix2 rr d)
      = Ideal.div (stt V c row d 8 le_rfl).2.2 (stt V c row d 8 le_rfl).2.1 := by
  have h0 : ¬t.val % 8 = 0 := by omega
  have hinv := inv_all V c t.val t.isLt
  have hs := hinv.2 rr d row hrow
  rw [stt_congr V c row d (show t.val % 8 + 1 = 8 by omega) _ le_rfl] at hs
  rw [← hs]
  rw [outsAt1_C V c t h0 h1]
  rw [caseC_out, pay3_at, ← caseC_acc V c t h0 h1, ← caseC_l V c t h0 h1]

end Cert.KernelIdeal.HandValue

end
-- ==== Proof.Finite.lean ====
import proofs.«105404_j15710990369179_2_alg».proof.Defs
import proofs.«105404_j15710990369179_2_alg».proof.Proof.Gen.Pre_finite_inputs
import Idealize.ShloMosaic.Lib.ReduceAll
import Idealize.ShloMosaic.Lib.ValueIdx

/-!
  Finiteness of the inputs. The precondition is the conjunction, over the five argument arrays, of
  "every entry `a i` has `|a i| < +∞`". Over the extended reals `|x| = max x (-x)`, and `max x (-x) < ⊤`
  excludes both `x = ⊤` and `x = ⊥`, so every entry is (the image of) a real number. Choosing that real
  at every index gives, for each array, a real-valued array whose image it is.
-/

noncomputable section

namespace Cert.Attn.Finite

open Idealize.ShloMosaic Idealize.SL.Sem

/-- An extended real whose absolute value `max x (-x)` lies strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` (sign 0, exponent all ones, mantissa 0) denotes `⊤`. -/
theorem inf_eq_top : Ideal.ofBits .f32 0x7F800000#32 = (⊤ : EReal) := by
  simp [Ideal.ofBits, Ideal.ieee]

/-- One entry: if the comparison `|x| < +∞` is true then `x` is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [inf_eq_top] at h'
  unfold Ideal.cmp at h'
  by_contra hc
  simp [hc] at h'

/-- The rank-0 shape has exactly one index. -/
local instance subsingleton_scalarIdx : Subsingleton (⟨0, ![]⟩ : Shape).Idx :=
  ⟨fun a b => funext fun d => d.elim0⟩

/-- One array of any shape `S`: if the conjunction over all indices `i` of `|a i| < +∞` is true,
    then every entry of `a` is a real number. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (j : (⟨0, ![]⟩ : Shape).Idx)
    (h : Host.reduce IntOp.andi
          (cmpf .olt (Host.absf a) (broadcastInDim S ![] hb (constant (F := Ideal) (⟨0, ![]⟩ : Shape) .f32 0x7F800000#32)))
          (constantI (⟨0, ![]⟩ : Shape) 1 1#1) hr hu j = 1#1) :
    ∀ i, ∃ r : ℝ, a i = (r : EReal) := fun i =>
  real_of_cmp (a i) (Host.reduce_andi_all _ _ hr hu j h i)

/-- The precondition says every entry of the five argument arrays is a real number. -/
theorem real_inputs [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∃ xr : Cert.KernelIdeal.S8192x512.Idx → ℝ,
        m ((c.tc : Thread Cert.KernelIdeal.nD Cert.KernelIdeal.τ).loc Cert.KernelIdeal.main_arg0) = fun i => ((xr i : ℝ) : EReal))
    ∧ (∃ er : Cert.KernelIdeal.S8192x512.Idx → ℝ,
        m ((c.tc : Thread Cert.KernelIdeal.nD Cert.KernelIdeal.τ).loc Cert.KernelIdeal.main_arg1) = fun i => ((er i : ℝ) : EReal))
    ∧ (∃ qr : Cert.KernelIdeal.S512x64.Idx → ℝ,
        m ((c.tc : Thread Cert.KernelIdeal.nD Cert.KernelIdeal.τ).loc Cert.KernelIdeal.main_arg2) = fun i => ((qr i : ℝ) : EReal))
    ∧ (∃ kr : Cert.KernelIdeal.S512x64.Idx → ℝ,
        m ((c.tc : Thread Cert.KernelIdeal.nD Cert.KernelIdeal.τ).loc Cert.KernelIdeal.main_arg3) = fun i => ((kr i : ℝ) : EReal))
    ∧ (∃ vr : Cert.KernelIdeal.S512x64.Idx → ℝ,
        m ((c.tc : Thread Cert.KernelIdeal.nD Cert.KernelIdeal.τ).loc Cert.KernelIdeal.main_arg4) = fun i => ((vr i : ℝ) : EReal)) := by
  have h0 := congrFun (h c) ValueIdx.ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  have r0 := real_of_all _ _ _ _ _ h0'
  have r1 := real_of_all _ _ _ _ _ h1
  have r2 := real_of_all _ _ _ _ _ h2
  have r3 := real_of_all _ _ _ _ _ h3
  have r4 := real_of_all _ _ _ _ _ h4
  exact ⟨⟨fun i => (r0 i).choose, funext fun i => (r0 i).choose_spec⟩,
         ⟨fun i => (r1 i).choose, funext fun i => (r1 i).choose_spec⟩,
         ⟨fun i => (r2 i).choose, funext fun i => (r2 i).choose_spec⟩,
         ⟨fun i => (r3 i).choose, funext fun i => (r3 i).choose_spec⟩,
         ⟨fun i => (r4 i).choose, funext fun i => (r4 i).choose_spec⟩⟩

end Cert.Attn.Finite
-- ==== Proof.KI.Value.lean ====
/-
  The kernel's result array at the exact instance, under the precondition that every input entry is a real number:
  softmax attention of the projected queries, keys and values, in the specification's arrangement, at the scale
  1 / sqrt 64. The key/value projection region leaves the transposed keys and the values as the inner products of the
  embeddings' rows with the weights' columns. In the attention region each query tile's last grid point leaves, at
  every row and head dimension, the quotient of the one-pass softmax recurrence's weighted sum by its denominator,
  run over the row's scores tile by tile. Every score and every value entry is a real number, so that quotient is
  the softmax-weighted sum over all scores at once, and this is the specification's attention value; the sixteen
  tiles' blocks fill the result array. The kernel's scale 0.125 and the quotient 1 / sqrt 64 are the same number.
-/
import proofs.«105404_j15710990369179_2_alg».proof.Proof.KI.Run
import proofs.«105404_j15710990369179_2_alg».proof.Proof.KI.Value0
import proofs.«105404_j15710990369179_2_alg».proof.Proof.KI.Value1
import proofs.«105404_j15710990369179_2_alg».proof.Proof.Bridge
import proofs.«105404_j15710990369179_2_alg».proof.Proof.Scale
import proofs.«105404_j15710990369179_2_alg».proof.Proof.LibOnlineSoftmax
import proofs.«105404_j15710990369179_2_alg».proof.Proof.Finite

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.Attn OnlineSoftmax

/-! ## The one-pass recurrence's quotient is the attention value, on real inputs -/

/-- With real inputs, and the transposed keys and the values the projections of the embeddings, the quotient the
    one-pass recurrence over a row's eight score tiles ends at is the specification's attention value of the row. -/
theorem attn_of_run (x e : SX.Idx → EReal) (wq wk wv : SW.Idx → EReal) (kt : SKT.Idx → EReal) (vv : SO.Idx → EReal)
    (xr er : SX.Idx → ℝ) (qr kr vr : SW.Idx → ℝ)
    (hx : x = fun i => ((xr i : ℝ) : EReal)) (he : e = fun i => ((er i : ℝ) : EReal)) (hq : wq = fun i => ((qr i : ℝ) : EReal))
    (hk : wk = fun i => ((kr i : ℝ) : EReal)) (hv : wv = fun i => ((vr i : ℝ) : EReal))
    (hkt : ∀ (dd : Fin 64) (n : Fin 8192), kt (ix2 dd n) = proj e wk n dd)
    (hvv : ∀ (n : Fin 8192) (d : Fin 64), vv (ix2 n d) = proj e wv n d) (row : Fin 8192) (d : Fin 64) :
    Ideal.div (OnlineSoftmax.run (sfun (Ideal.ofBits .f32 0x3E000000#32) x wq kt row) (vfun vv d) 8 le_rfl).2.2
        (OnlineSoftmax.run (sfun (Ideal.ofBits .f32 0x3E000000#32) x wq kt row) (vfun vv d) 8 le_rfl).2.1
      = attn (Ideal.ofBits .f32 0x3E000000#32) x e wq wk wv row d := by
  subst hx he hq hk hv
  have hS : ∀ b j, sfun (Ideal.ofBits .f32 0x3E000000#32) (fun i => ((xr i : ℝ) : EReal)) (fun i => ((qr i : ℝ) : EReal)) kt row b j ≠ ⊥
      ∧ sfun (Ideal.ofBits .f32 0x3E000000#32) (fun i => ((xr i : ℝ) : EReal)) (fun i => ((qr i : ℝ) : EReal)) kt row b j ≠ ⊤ := by
    rw [Scale.scale_kernel]
    exact sfun_finite ((1 : ℝ) / 8) xr er qr kr kt hkt row
  have hV := vfun_finite er vr vv hvv d
  exact (OnlineSoftmax.online_eq_whole_of_finite (by norm_num) (by norm_num) _ _ hS hV).trans
    (whole_eq_attn _ _ _ _ _ _ kt vv hkt hvv row d)

/-! ## What the attention region finds in the two arrays the projection region wrote -/

variable (m : (ℓ : Loc nD τ sig) → Buf (Elt Ideal) ℓ)

/-- Entry (d, n) of the transposed keys the attention region reads is embeddings row n against the key weights' column d. -/
theorem keysT_at (c : Dev nD) (dd : Fin 64) (n : Fin 8192) :
    (VB m c main_v0_0 : SKT.Idx → EReal) (ix2 dd n)
      = proj (m ((c.tc : Thread nD τ).loc main_arg1)) (m ((c.tc : Thread nD τ).loc main_arg3)) n dd := by
  rw [VB_keysT, keysT_final (VA m) c]
  rfl

/-- Entry (n, d) of the values the attention region reads is embeddings row n against the value weights' column d. -/
theorem values_at (c : Dev nD) (n : Fin 8192) (d : Fin 64) :
    (VB m c main_v0_1 : SO.Idx → EReal) (ix2 n d)
      = proj (m ((c.tc : Thread nD τ).loc main_arg1)) (m ((c.tc : Thread nD τ).loc main_arg4)) n d := by
  rw [VB_values, values_final (VA m) c]
  rfl

/-! ## The result array -/

/-- The kernel's result array is the specification's attention array at the scale 1 / sqrt 64. -/
theorem kernel_value [hPre_finite_inputs : Cert.Pre_finite_inputs.Facts] (hpre : Cert.Pre_KernelIdeal m) (c : Dev nD) :
    (dat1 (VB m) c).arrAt 4 cfg1.N
      = Cert.Attn.G (Ideal.div (Ideal.ofBits .f32 0x3F800000#32) (Ideal.sqrt (Ideal.ofBits .f32 0x42800000#32)))
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  obtain ⟨⟨xr, hx⟩, ⟨er, he⟩, ⟨qr, hq⟩, ⟨kr, hk⟩, ⟨vr, hv⟩⟩ := Cert.Attn.Finite.real_inputs m hpre c
  rw [← Cert.Attn.G_scales]
  refine out_final (VB m) c _ (fun t h1 rr d n hn => ?_)
  rw [out_last (VB m) c t h1 rr d n hn]
  unfold stt
  rw [VB_main_arg0, VB_main_arg2]
  exact attn_of_run _ _ _ _ _ (VB m c main_v0_0) (VB m c main_v0_1) xr er qr kr vr hx he hq hk hv (keysT_at m c) (values_at m c) n d

end Cert.KernelIdeal.HandValue

end
-- ==== Proof.RefValue.lean ====
/-
  The reference's result is the specification: read index by index, the reference's twenty-one stages compute
  softmax attention over the projected queries, keys and values, at the reference's own scale 1 / sqrt 64.
-/
import proofs.«105404_j15710990369179_2_alg».proof.Proof.Spec
import proofs.«105404_j15710990369179_2_alg».proof.Proof.Gen.ReferenceIdeal.Read

noncomputable section

namespace Cert.ReferenceIdeal.RefValue

open Cert.ReferenceIdeal Cert.ReferenceIdeal.Gen Idealize.ShloMosaic Idealize.ShloMosaic.ValueIdx Cert.Attn

/-- the reference's scale: 1 / sqrt 64, as the reference computes it -/
abbrev scale : EReal := Ideal.div (Ideal.ofBits .f32 0x3F800000#32) (Ideal.sqrt (Ideal.ofBits .f32 0x42800000#32))

/-! ## The composed index functions at coordinates -/

theorem lidx0 (r : Fin 8192) (d : Fin 64) (k : Fin 512) : Read.lidx_main_v0 (ix2 r d) k = ix2 r k :=
  funext fun a => Fin.ext (by match a with | ⟨0, _⟩ => rfl | ⟨1, _⟩ => rfl)
theorem ridx0 (r : Fin 8192) (d : Fin 64) (k : Fin 512) : Read.ridx_main_v0 (ix2 r d) k = ix2 k d :=
  funext fun a => Fin.ext (by match a with | ⟨0, _⟩ => rfl | ⟨1, _⟩ => rfl)
theorem lidx1 (r : Fin 8192) (d : Fin 64) (k : Fin 512) : Read.lidx_main_v1 (ix2 r d) k = ix2 r k :=
  funext fun a => Fin.ext (by match a with | ⟨0, _⟩ => rfl | ⟨1, _⟩ => rfl)
theorem ridx1 (r : Fin 8192) (d : Fin 64) (k : Fin 512) : Read.ridx_main_v1 (ix2 r d) k = ix2 k d :=
  funext fun a => Fin.ext (by match a with | ⟨0, _⟩ => rfl | ⟨1, _⟩ => rfl)
theorem lidx2 (r : Fin 8192) (d : Fin 64) (k : Fin 512) : Read.lidx_main_v2 (ix2 r d) k = ix2 r k :=
  funext fun a => Fin.ext (by match a with | ⟨0, _⟩ => rfl | ⟨1, _⟩ => rfl)
theorem ridx2 (r : Fin 8192) (d : Fin 64) (k : Fin 512) : Read.ridx_main_v2 (ix2 r d) k = ix2 k d :=
  funext fun a => Fin.ext (by match a with | ⟨0, _⟩ => rfl | ⟨1, _⟩ => rfl)
theorem idx5 (d : Fin 64) (n : Fin 8192) : Read.idx_main_v5 (ix2 d n) = ix2 n d :=
  funext fun a => Fin.ext (by match a with | ⟨0, _⟩ => rfl | ⟨1, _⟩ => rfl)
theorem lidx6 (r n : Fin 8192) (d : Fin 64) : Read.lidx_main_v6 (ix2 r n) d = ix2 r d :=
  funext fun a => Fin.ext (by match a with | ⟨0, _⟩ => rfl | ⟨1, _⟩ => rfl)
theorem ridx6 (r n : Fin 8192) (d : Fin 64) : Read.ridx_main_v6 (ix2 r n) d = ix2 d n :=
  funext fun a => Fin.ext (by match a with | ⟨0, _⟩ => rfl | ⟨1, _⟩ => rfl)
theorem idx12 (r : Fin 8192) (z : Fin 1) : Read.idx_main_v12 (ix2 r z) = ix1 r :=
  funext fun a => Fin.ext (by match a with | ⟨0, _⟩ => rfl)
theorem idx13 (r n : Fin 8192) : Read.idx_main_v13 (ix2 r n) = ix2 r (0 : Fin 1) :=
  funext fun a => Fin.ext (by match a with | ⟨0, _⟩ => rfl | ⟨1, _⟩ => rfl)
theorem idx16 (r k : Fin 8192) : Read.idx_main_v16 (ix1 r) k = ix2 r k :=
  funext fun a => Fin.ext (by match a with | ⟨0, _⟩ => rfl | ⟨1, _⟩ => rfl)
theorem idx17 (r : Fin 8192) (z : Fin 1) : Read.idx_main_v17 (ix2 r z) = ix1 r :=
  funext fun a => Fin.ext (by match a with | ⟨0, _⟩ => rfl)
theorem idx18 (r n : Fin 8192) : Read.idx_main_v18 (ix2 r n) = ix2 r (0 : Fin 1) :=
  funext fun a => Fin.ext (by match a with | ⟨0, _⟩ => rfl | ⟨1, _⟩ => rfl)
theorem lidx20 (r n : Fin 8192) (d : Fin 64) : Read.lidx_main_v20 (ix2 r d) n = ix2 r n :=
  funext fun a => Fin.ext (by match a with | ⟨0, _⟩ => rfl | ⟨1, _⟩ => rfl)
theorem ridx20 (r n : Fin 8192) (d : Fin 64) : Read.ridx_main_v20 (ix2 r d) n = ix2 n d :=
  funext fun a => Fin.ext (by match a with | ⟨0, _⟩ => rfl | ⟨1, _⟩ => rfl)

/-! ## The two infinite and zero words -/

theorem ofBits_neg_inf : Ideal.ofBits .f32 0xFF800000#32 = ⊥ := by simp [Ideal.ofBits, Ideal.ieee]

/-! ## The stages at coordinates -/

variable (x e : FVec Ideal S8192x512 .f32) (wq wk wv : FVec Ideal S512x64 .f32)

/-- the queries: x @ wq -/
theorem v0_at (r : Fin 8192) (d : Fin 64) : Read.val_main_v0 (F := Ideal) x wq (ix2 r d) = proj x wq r d := by
  rw [Read.val_main_v0_apply]
  simp only [lidx0, ridx0]
  rfl

/-- the keys: e @ wk -/
theorem v1_at (n : Fin 8192) (d : Fin 64) : Read.val_main_v1 (F := Ideal) e wk (ix2 n d) = proj e wk n d := by
  rw [Read.val_main_v1_apply]
  simp only [lidx1, ridx1]
  rfl

/-- the values: e @ wv -/
theorem v2_at (n : Fin 8192) (d : Fin 64) : Read.val_main_v2 (F := Ideal) e wv (ix2 n d) = proj e wv n d := by
  rw [Read.val_main_v2_apply]
  simp only [lidx2, ridx2]
  rfl

/-- the keys transposed -/
theorem v5_at (d : Fin 64) (n : Fin 8192) : Read.val_main_v5 (F := Ideal) e wk (ix2 d n) = proj e wk n d := by
  rw [Read.val_main_v5_apply, idx5, v1_at]

/-- the unscaled scores: q @ kᵀ -/
theorem v6_at (r n : Fin 8192) :
    Read.val_main_v6 (F := Ideal) x e wq wk (ix2 r n) = ∑ d : Fin 64, proj x wq r d * proj e wk n d := by
  rw [Read.val_main_v6_apply]
  simp only [lidx6, ridx6, v0_at, v5_at]

/-- the scale, spread over the score matrix -/
theorem v7_at (i : S8192x8192.Idx) : Read.val_main_v7 (F := Ideal) i = scale := by
  rw [Read.val_main_v7_apply, Read.val_main_v4_apply, Read.val_main_v3_apply, Read.val_main_cst_apply,
    Read.val_main_cst_0_apply]
  rfl

/-- the scaled scores -/
theorem v8_at (r n : Fin 8192) :
    Read.val_main_v8 (F := Ideal) x e wq wk (ix2 r n) = score scale x e wq wk r n := by
  rw [Read.val_main_v8_apply, v6_at, v7_at]
  rfl

/-! ## The row maximum -/

/-- row r of the score matrix with column k put back is (r, k) -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- the row maximum from −∞: the largest score of the row -/
theorem v9_at (r : Fin 8192) :
    Read.val_main_v9 (F := Ideal) x e wq wk (ix1 r)
      = Finset.univ.fold max ⊥ (fun n : Fin 8192 => score scale x e wq wk r n) := by
  unfold Read.val_main_v9
  have h : S8192x8192.Reduces [1] S8192 := by decide
  rw [Host.reduce_eq_fold_single FloatOps.maximumf _ _ reducesTo_S8192x8192_S8192_d1 h h_S_]
  have hf : (Read.val_main_v8 (F := Ideal) x e wq wk ∘ h.lift (ix1 r))
      = fun n : Fin 8192 => score scale x e wq wk r n :=
    funext fun k => (congrArg (Read.val_main_v8 (F := Ideal) x e wq wk) (lift_row h r k)).trans (v8_at x e wq wk r _)
  have hb : Read.val_main_cst_1 (F := Ideal) (Shape.Idx.first h_S_) = (⊥ : EReal) := by
    rw [Read.val_main_cst_1_apply]; exact ofBits_neg_inf
  rw [hb]
  exact congrArg (fun f => Finset.fold max (⊥ : EReal) f (Finset.univ : Finset (Fin 8192))) hf

/-- the −∞ row -/
theorem v10_at (i : S8192.Idx) : Read.val_main_v10 (F := Ideal) i = (⊥ : EReal) := by
  rw [Read.val_main_v10_apply, Read.val_main_cst_2_apply]; exact ofBits_neg_inf

/-- the maximum with −∞ changes nothing -/
theorem v11_at (r : Fin 8192) :
    Read.val_main_v11 (F := Ideal) x e wq wk (ix1 r)
      = Finset.univ.fold max ⊥ (fun n : Fin 8192 => score scale x e wq wk r n) := by
  rw [Read.val_main_v11_apply, v10_at, v9_at]
  exact max_bot_left _

/-- the row maxima as a column, spread over the score matrix -/
theorem v13_at (r n : Fin 8192) :
    Read.val_main_v13 (F := Ideal) x e wq wk (ix2 r n)
      = Finset.univ.fold max ⊥ (fun n : Fin 8192 => score scale x e wq wk r n) := by
  rw [Read.val_main_v13_apply, idx13, Read.val_main_v12_apply, idx12, v11_at]

/-- the shifted scores' exponentials -/
theorem v15_at (r n : Fin 8192) :
    Read.val_main_v15 (F := Ideal) x e wq wk (ix2 r n)
      = Ideal.exp (score scale x e wq wk r n - Finset.univ.fold max ⊥ (fun n : Fin 8192 => score scale x e wq wk r n)) := by
  rw [Read.val_main_v15_apply, Read.val_main_v14_apply, v8_at, v13_at]
  rfl

/-- the row sums of the exponentials -/
theorem v16_at (r : Fin 8192) :
    Read.val_main_v16 (F := Ideal) x e wq wk (ix1 r)
      = ∑ n : Fin 8192, Ideal.exp (score scale x e wq wk r n - Finset.univ.fold max ⊥ (fun n : Fin 8192 => score scale x e wq wk r n)) := by
  rw [Read.val_main_v16_apply, Read.val_main_cst_3_apply]
  simp only [idx16, v15_at]
  rw [Ideal.ofBits_def, Ideal.ofBits_zero_f32, zero_add]

/-- the row sums as a column, spread over the score matrix -/
theorem v18_at (r n : Fin 8192) :
    Read.val_main_v18 (F := Ideal) x e wq wk (ix2 r n)
      = ∑ n : Fin 8192, Ideal.exp (score scale x e wq wk r n - Finset.univ.fold max ⊥ (fun n : Fin 8192 => score scale x e wq wk r n)) := by
  rw [Read.val_main_v18_apply, idx18, Read.val_main_v17_apply, idx17, v16_at]

/-- the softmax weights -/
theorem v19_at (r n : Fin 8192) :
    Read.val_main_v19 (F := Ideal) x e wq wk (ix2 r n)
      = Ideal.div (Ideal.exp (score scale x e wq wk r n - Finset.univ.fold max ⊥ (fun n : Fin 8192 => score scale x e wq wk r n)))
          (∑ n : Fin 8192, Ideal.exp (score scale x e wq wk r n - Finset.univ.fold max ⊥ (fun n : Fin 8192 => score scale x e wq wk r n))) := by
  rw [Read.val_main_v19_apply, v15_at, v18_at]
  rfl

/-- the result: the weights times the values -/
theorem v20_at (r : Fin 8192) (d : Fin 64) :
    Read.val_main_v20 (F := Ideal) x e wq wk wv (ix2 r d) = attn scale x e wq wk wv r d := by
  rw [Read.val_main_v20_apply]
  simp only [lidx20, ridx20, v19_at, v2_at]
  rfl

/-- The reference's last stage is the specification at the reference's scale. -/
theorem val_eq : Read.val_main_v20 (F := Ideal) x e wq wk wv = G scale x e wq wk wv := by
  funext i
  obtain ⟨r, d, rfl⟩ : ∃ (r : Fin 8192) (d : Fin 64), i = ix2 r d := ⟨i 0, i 1, eq_ix2 i⟩
  exact v20_at x e wq wk wv r d

/-- The reference run's result term is the specification at the reference's own scale, 1 / sqrt 64. -/
theorem result_eq (x e : FVec Ideal Cert.ReferenceIdeal.S8192x512 .f32) (wq wk wv : FVec Ideal Cert.ReferenceIdeal.S512x64 .f32) :
    Host.dotGeneral dot_S8192x8192_S8192x64_S8192x64_1_0_0_1_n_n none (Host.divf (Host.exp (subf (mulf (Host.dotGeneral dot_S8192x64_S64x8192_S8192x8192_1_0_0_1_n_n none (Host.dotGeneral dot_S8192x512_S512x64_S8192x64_1_0_0_1_n_n none x wq) (transpose S64x8192 [1, 0] (Host.dotGeneral dot_S8192x512_S512x64_S8192x64_1_0_0_1_n_n none e wk) transposes_S8192x64_S64x8192_1_0)) (broadcastInDim S8192x8192 ![] bcast_S_S8192x8192 (Host.divf (constant S_ .f32 0x3F800000#32) (Host.sqrt (constant S_ .f32 0x42800000#32))))) (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf (mulf (Host.dotGeneral dot_S8192x64_S64x8192_S8192x8192_1_0_0_1_n_n none (Host.dotGeneral dot_S8192x512_S512x64_S8192x64_1_0_0_1_n_n none x wq) (transpose S64x8192 [1, 0] (Host.dotGeneral dot_S8192x512_S512x64_S8192x64_1_0_0_1_n_n none e wk) transposes_S8192x64_S64x8192_1_0)) (broadcastInDim S8192x8192 ![] bcast_S_S8192x8192 (Host.divf (constant S_ .f32 0x3F800000#32) (Host.sqrt (constant S_ .f32 0x42800000#32))))) (constant S_ .f32 0xFF800000#32) reducesTo_S8192x8192_S8192_d1 h_S_)))))) (broadcastInDim S8192x8192 ![0, 1] bcast_S8192x1_S8192x8192_0_1 (broadcastInDim S8192x1 ![0] bcast_S8192_S8192x1_0 (Host.reduceAdd (Host.exp (subf (mulf (Host.dotGeneral dot_S8192x64_S64x8192_S8192x8192_1_0_0_1_n_n none (Host.dotGeneral dot_S8192x512_S512x64_S8192x64_1_0_0_1_n_n none x wq) (transpose S64x8192 [1, 0] (Host.dotGeneral dot_S8192x512_S512x64_S8192x64_1_0_0_1_n_n none e wk) transposes_S8192x64_S64x8192_1_0)) (broadcastInDim S8192x8192 ![] bcast_S_S8192x8192 (Host.divf (constant S_ .f32 0x3F800000#32) (Host.sqrt (constant S_ .f32 0x42800000#32))))) (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf (mulf (Host.dotGeneral dot_S8192x64_S64x8192_S8192x8192_1_0_0_1_n_n none (Host.dotGeneral dot_S8192x512_S512x64_S8192x64_1_0_0_1_n_n none x wq) (transpose S64x8192 [1, 0] (Host.dotGeneral dot_S8192x512_S512x64_S8192x64_1_0_0_1_n_n none e wk) transposes_S8192x64_S64x8192_1_0)) (broadcastInDim S8192x8192 ![] bcast_S_S8192x8192 (Host.divf (constant S_ .f32 0x3F800000#32) (Host.sqrt (constant S_ .f32 0x42800000#32))))) (constant S_ .f32 0xFF800000#32) reducesTo_S8192x8192_S8192_d1 h_S_)))))) (constant S_ .f32 0x00000000#32) reducesTo_S8192x8192_S8192_d1 h_S_)))) (Host.dotGeneral dot_S8192x512_S512x64_S8192x64_1_0_0_1_n_n none e wv)
      = Cert.Attn.G (Ideal.div (Ideal.ofBits .f32 0x3F800000#32) (Ideal.sqrt (Ideal.ofBits .f32 0x42800000#32))) x e wq wk wv :=
  (Read.val_main_v20_eq (F := Ideal) x e wq wk wv).trans (val_eq x e wq wk wv)

end Cert.ReferenceIdeal.RefValue

end
-- ==== Proof.lean ====
/-
  Scaled dot-product attention with a softmax over the keys: a flash-attention kernel against its plain reference.

  The reference computes q = x·Wq, k = e·Wk, v = e·Wv, the scores (q·kᵀ)·(1/√64), their softmax along the keys
  (each exponential of a score minus the row's maximum, divided by the row's sum of those exponentials) and the product
  of that with v. The kernel runs in two launches. The first computes kᵀ and v block by block. The second walks, for
  each tile of 512 queries, the 8 tiles of 1024 keys and values, and carries per query row a running maximum m, a
  running denominator l and a running weighted sum acc: a new tile raises the maximum to m', rescales l and acc by
  exp(m − m') and adds the tile's own exp(s − m') and exp(s − m')·v; after the last tile it stores acc / l. It scales
  the scores by the float 0.125.

  Over the extended reals, with every input entry finite, the two agree: 1/√64 is 1/8, every intermediate value is a
  real number except the start value m = −∞, whose exp(−∞ − m') is 0; exp(m − m')·exp(s − m) = exp(s − m'), so after all
  tiles l and acc are the sums of exp(s − M) and exp(s − M)·v over ALL keys for the last maximum M, and the quotient of
  two such sums does not depend on the shift M; dividing each weight by the denominator before or after the weighted sum
  is the same in the reals.

  Each program also runs to the end without a fault and leaves its arguments unchanged: for the kernel this is stated
  region by region (the second region keeps its four scratch buffers between grid points, at contents that are named
  point by point), at the word level and at the exact level by the same text; for the reference it is its run read back.
-/
import proofs.«105404_j15710990369179_2_alg».proof.Defs
import proofs.«105404_j15710990369179_2_alg».proof.Proof.Gen.Kernel
import proofs.«105404_j15710990369179_2_alg».proof.Proof.Gen.Kernel.Skeleton
import proofs.«105404_j15710990369179_2_alg».proof.Proof.Gen.Kernel.Launch
import proofs.«105404_j15710990369179_2_alg».proof.Proof.Gen.Kernel.Regions
import proofs.«105404_j15710990369179_2_alg».proof.Proof.Gen.Kernel.Points
import proofs.«105404_j15710990369179_2_alg».proof.Proof.Gen.KernelIdeal
import proofs.«105404_j15710990369179_2_alg».proof.Proof.Gen.KernelIdeal.Skeleton
import proofs.«105404_j15710990369179_2_alg».proof.Proof.Gen.KernelIdeal.Launch
import proofs.«105404_j15710990369179_2_alg».proof.Proof.Gen.KernelIdeal.Regions
import proofs.«105404_j15710990369179_2_alg».proof.Proof.Gen.KernelIdeal.Points
import proofs.«105404_j15710990369179_2_alg».proof.Proof.Gen.ReferenceIdeal
import proofs.«105404_j15710990369179_2_alg».proof.Proof.Gen.ReferenceIdeal.Run
import proofs.«105404_j15710990369179_2_alg».proof.Proof.Gen.ReferenceIdeal.Read
import proofs.«105404_j15710990369179_2_alg».proof.Proof.Gen.Pre_finite_inputs
import proofs.«105404_j15710990369179_2_alg».proof.Proof.K.Run
import proofs.«105404_j15710990369179_2_alg».proof.Proof.KI.Run
import proofs.«105404_j15710990369179_2_alg».proof.Proof.KI.Value
import proofs.«105404_j15710990369179_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ
/-- The same at the exact level. -/
theorem frame_ki : Cert.frame_KernelIdeal := fun m ρ _ => Cert.KernelIdeal.Hand.frame (F := Ideal) m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact-level program is the word-level one's text unchanged: nothing was rewritten. -/
theorem preserves : Cert.preserves_Kernel_KernelIdeal := trivial

/-- Both programs end with the softmax attention of the arguments, the reference's arrangement at the reference's scale. -/
theorem algebraic : Cert.algebraic_KernelIdeal_ReferenceIdeal := by
  intro m ρ m' ρ' hpre hagree
  refine ⟨fun c => Cert.Attn.G (Ideal.div (Ideal.ofBits .f32 0x3F800000#32) (Ideal.sqrt (Ideal.ofBits .f32 0x42800000#32)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Hand.run_all (F := Ideal) m ρ)
    exact Cert.KernelIdeal.HandValue.kernel_value m hpre c
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.RefValue.result_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
